-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x2048 : Shape := ⟨2, ![1024, 2048]⟩
abbrev S2048 : Shape := ⟨1, ![2048]⟩
abbrev S2048x1024 : Shape := ⟨2, ![2048, 1024]⟩
abbrev S1024 : Shape := ⟨1, ![1024]⟩
abbrev S1000x1024 : Shape := ⟨2, ![1000, 1024]⟩
abbrev S8192 : Shape := ⟨1, ![8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1000x1024 : S_.BroadcastsInDim S1000x1024 (![] : Fin 0 → Fin S1000x1024.rank)
  reducesTo_S1000x1024_S_d0_1 : S1000x1024.ReducesTo [0, 1] S_

variable [Facts]

def fn_part1 {F : FTy → Type} [FloatOps F] (main_arg4 : FVec F S1024 .f32) (main_arg5 : FVec F S1000x1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1000x1024 .f32 := Host.absf main_arg5
  let main_cst_8 : FVec F S_ .f32 := constant S_ .f32 0x7F800000#32
  let main_v25 : FVec F S1000x1024 .f32 := broadcastInDim S1000x1024 ![] bcast_S_S1000x1024 main_cst_8
  let main_v26 : IVec S1000x1024 1 := cmpf .olt main_v24 main_v25
  let main_c_9 : IVec S_ 1 := constantI S_ 1 1#1
  let main_v27 : IVec S_ 1 := (fun x v => Host.reduce IntOp.andi x v reducesTo_S1000x1024_S_d0_1 h_S_) main_v26 main_c_9
  let main_v28 : IVec S_ 1 := andi main_v23 main_v27
  main_v28

def fn {F : FTy → Type} [FloatOps F] (main_arg0 : FVec F S8192x1024 .f32) (main_arg1 : FVec F S1024x2048 .f32) (main_arg2 : FVec F S2048 .f32) (main_arg3 : FVec F S2048x1024 .f32) (main_arg4 : FVec F S1024 .f32) (main_arg5 : FVec F S1000x1024 .f32) (main_arg6 : IVec S8192 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_v13 main_v16
-- ==== Kernel.lean ====
abbrev S8192x1024 : Shape := ⟨2, ![8192, 1024]⟩
abbrev S1024x2048 : Shape := ⟨2, ![1024, 2048]⟩
abbrev S2048 : Shape := ⟨1, ![2048]⟩
abbrev S2048x1024 : Shape := ⟨2, ![2048, 1024]⟩
abbrev S1024 : Shape := ⟨1, ![1024]⟩
abbrev S1000x1024 : Shape := ⟨2, ![1000, 1024]⟩
abbrev S8192 : Shape := ⟨1, ![8192]⟩
abbrev S_ : Shape := ⟨0, ![]⟩
abbrev S1024x1024 : Shape := ⟨2, ![1024, 1024]⟩
abbrev S1 : Shape := ⟨1, ![1]⟩
abbrev S1x1024 : Shape := ⟨2, ![1, 1024]⟩
abbrev S1x2048 : Shape := ⟨2, ![1, 2048]⟩
abbrev S1x8192 : Shape := ⟨2, ![1, 8192]⟩
abbrev S1024x1 : Shape := ⟨2, ![1024, 1]⟩
abbrev S1024x256 : Shape := ⟨2, ![1024, 256]⟩
abbrev S2x1024x1024 : Shape := ⟨3, ![2, 1024, 1024]⟩
abbrev S256x1024 : Shape := ⟨2, ![256, 1024]⟩
abbrev S1x256 : Shape := ⟨2, ![1, 256]⟩
abbrev S1x1024x1024 : Shape := ⟨3, ![1, 1024, 1024]⟩
abbrev S256x2048 : Shape := ⟨2, ![256, 2048]⟩
abbrev S256 : Shape := ⟨1, ![256]⟩
abbrev S256x1 : Shape := ⟨2, ![256, 1]⟩
abbrev S8192x1000 : Shape := ⟨2, ![8192, 1000]⟩
abbrev S8192x1 : Shape := ⟨2, ![8192, 1]⟩
abbrev S1x1000 : Shape := ⟨2, ![1, 1000]⟩
abbrev S1000 : Shape := ⟨1, ![1000]⟩

abbrev nBuf : Space → Nat
  | .hbm => 41
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S2048, .f32⟩
  | .hbm, ⟨3, _⟩ => ⟨S2048x1024, .f32⟩
  | .hbm, ⟨4, _⟩ => ⟨S1024, .f32⟩
  | .hbm, ⟨5, _⟩ => ⟨S1000x1024, .f32⟩
  | .hbm, ⟨6, _⟩ => ⟨S8192, .i32⟩
  | .hbm, ⟨7, _⟩ => ⟨S_, .f32⟩
  | .hbm, ⟨8, _⟩ => ⟨S1024x1024, .f32⟩
  | .hbm, ⟨9, _⟩ => ⟨S_, .i32⟩
  | .hbm, ⟨10, _⟩ => ⟨S1, .i32⟩
  | .hbm, ⟨11, _⟩ => ⟨S1024x1024, .f32⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S8192x1024, .bf16⟩
  | .hbm, ⟨19, _⟩ => ⟨S1024x2048, .bf16⟩
  | .hbm, ⟨20, _⟩ => ⟨S2048x1024, .bf16⟩
  | .hbm, ⟨21, _⟩ => ⟨S1x2048, .f32⟩
  | .hbm, ⟨22, _⟩ => ⟨S1x1024, .f32⟩
  | .hbm, ⟨23, _⟩ => ⟨S1x8192, .i32⟩
  | .hbm, ⟨24, _⟩ => ⟨S1024, .i32⟩
  | .hbm, ⟨25, _⟩ => ⟨S1024x1, .i32⟩
  | .hbm, ⟨26, _⟩ => ⟨S1024x256, .i32⟩
  | .hbm, ⟨27, _⟩ => ⟨S8192x1024, .f32⟩
  | .hbm, ⟨28, _⟩ => ⟨S2x1024x1024, .f32⟩
  | .hbm, ⟨29, _⟩ => ⟨S8192x1000, .f32⟩
  | .hbm, ⟨30, _⟩ => ⟨S_, .f32⟩
  | .hbm, ⟨31, _⟩ => ⟨S1024x1024, .f32⟩
  | .hbm, ⟨32, _⟩ => ⟨S1000x1024, .f32⟩
  | .hbm, ⟨33, _⟩ => ⟨S8192x1, .i32⟩
  | .hbm, ⟨34, _⟩ => ⟨S1x1000, .i32⟩
  | .hbm, ⟨35, _⟩ => ⟨S8192x1000, .i32⟩
  | .hbm, ⟨36, _⟩ => ⟨S8192x1000, .i32⟩
  | .hbm, ⟨37, _⟩ => ⟨S8192x1000, .i1⟩
  | .hbm, ⟨38, _⟩ => ⟨S8192x1000, .f32⟩
  | .hbm, ⟨39, _⟩ => ⟨S_, .f32⟩
  | .hbm, ⟨40, _⟩ => ⟨S1000, .f32⟩
  | .local _ .vmem, ⟨0, _⟩ => ⟨S256x1024, .bf16⟩
  | .local _ .vmem, ⟨1, _⟩ => ⟨S256x1024, .bf16⟩
  | .local _ .vmem, ⟨2, _⟩ => ⟨S1024x2048, .bf16⟩
  | .local _ .vmem, ⟨3, _⟩ => ⟨S1x2048, .f32⟩
  | .local _ .vmem, ⟨4, _⟩ => ⟨S2048x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1x256, .i32⟩
  | .local _ .vmem, ⟨9, _⟩ => ⟨S1x256, .i32⟩
  | .local _ .vmem, ⟨10, _⟩ => ⟨S1024x256, .i32⟩
  | .local _ .vmem, ⟨11, _⟩ => ⟨S256x1024, .f32⟩
  | .local _ .vmem, ⟨12, _⟩ => ⟨S256x1024, .f32⟩
  | .local _ .vmem, ⟨13, _⟩ => ⟨S1x1024x1024, .f32⟩
  | .local _ .vmem, ⟨14, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1024x256 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  bcast_S_S1024x1024 : S_.BroadcastsInDim S1024x1024 (![] : Fin 0 → Fin S1024x1024.rank)
  bcast_S_S1 : S_.BroadcastsInDim S1 (![] : Fin 0 → Fin S1.rank)
  transposes_S1024x1024_S1024x1024_1_0 : S1024x1024.Transposes [1, 0] S1024x1024
  bitsLt_bf16_f32 : FTy.bits .bf16 < FTy.bits .f32
  reducesTo_S1024x1024_S1024_d1 : S1024x1024.ReducesTo [1] S1024
  h_S_ : 0 < S_.numel
  bcast_S1024_S1x1024_1 : S1024.BroadcastsInDim S1x1024 (![1] : Fin 1 → Fin S1x1024.rank)
  shapeCasts_S2048_S1x2048 : S2048.ShapeCasts S1x2048
  shapeCasts_S1024_S1x1024 : S1024.ShapeCasts S1x1024
  shapeCasts_S8192_S1x8192 : S8192.ShapeCasts S1x8192
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  reduces_S256x1024_S256 : S256x1024.Reduces [1] S256
  shapeCasts_S256_S256x1 : S256.ShapeCasts S256x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S256x1_S256x1024 : S256x1.Broadcasts S256x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  natLt_1_32 : 1 < 32
  slices_S8192x1024_S8192x1000_0_0 : S8192x1024.Slices ![0, 0] S8192x1000
  reducesTo_S2x1024x1024_S1024x1024_d0 : S2x1024x1024.ReducesTo [0] S1024x1024
  slices_S1024x1024_S1000x1024_0_0 : S1024x1024.Slices ![0, 0] S1000x1024
  bcast_S8192_S8192x1_0 : S8192.BroadcastsInDim S8192x1 (![0] : Fin 1 → Fin S8192x1.rank)
  bcast_S8192x1_S8192x1000_0_1 : S8192x1.BroadcastsInDim S8192x1000 (![0, 1] : Fin 2 → Fin S8192x1000.rank)
  bcast_S1x1000_S8192x1000_0_1 : S1x1000.BroadcastsInDim S8192x1000 (![0, 1] : Fin 2 → Fin S8192x1000.rank)
  reducesTo_S8192x1000_S1000_d0 : S8192x1000.ReducesTo [0] S1000
  scatter_S1024x1024_S1_S1000x1024_01_n_0_0_wf : ScatterDims.WF S1024x1024 S1 S1000x1024 [0, 1] [] [0] 0
  dot_S256x1024_S1024x2048_S256x2048_1_0_0_1_n_n_wf : DotDims.WF S256x1024 S1024x2048 S256x2048 [1] [0] [0] [1] [] []
  dot_S256x2048_S2048x1024_S256x1024_1_0_0_1_n_n_wf : DotDims.WF S256x2048 S2048x1024 S256x1024 [1] [0] [0] [1] [] []
  dot_S256x1024_S1024x1024_S256x1024_1_0_0_1_n_n_wf : DotDims.WF S256x1024 S1024x1024 S256x1024 [1] [0] [0] [1] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .bf16 = 32 ∨ (Rect.block (s := S8192x1024) S256x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .bf16 = 32 ∨ (Rect.block (s := S2048x1024) S2048x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x8192.size a
  hwx0_7 : ∀ i : grid0.Coords, EltTy.bits .i32 = 32 ∨ (Rect.block (s := S1x8192) S1x256.size (cc0_transform_7 i) (hinb0_7 i)).WholeWords (EltTy.packing .i32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S1024x256.size a
  hwx0_8 : ∀ i : grid0.Coords, EltTy.bits .i32 = 32 ∨ (Rect.block (s := S1024x256) S1024x256.size (cc0_transform_8 i) (hinb0_8 i)).WholeWords (EltTy.packing .i32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S8192x1024.size a
  hwx0_9 : ∀ i : grid0.Coords, EltTy.bits .f32 = 32 ∨ (Rect.block (s := S8192x1024) S256x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1024x1024.size a ≤ S2x1024x1024.size a
  hwx0_10 : ∀ i : grid0.Coords, EltTy.bits .f32 = 32 ∨ (Rect.block (s := S2x1024x1024) S1x1024x1024.size (cc0_transform_10 i) (hinb0_10 i)).WholeWords (EltTy.packing .f32)

variable [Facts₀]

def scatter_S1024x1024_S1_S1000x1024_01_n_0_0 : ScatterDims S1024x1024 S1 S1000x1024 where
  updateWindowDims := [0, 1]
  insertedWindowDims := []
  scatterDimsToOperandDims := [0]
  indexVectorDim := 0
  wf := scatter_S1024x1024_S1_S1000x1024_01_n_0_0_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v8) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1024x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17_0) S256x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v17_1) S1x1024x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x2048 : Shape := ⟨2, ![1024, 2048]⟩
abbrev S2048 : Shape := ⟨1, ![2048]⟩
abbrev S2048x1024 : Shape := ⟨2, ![2048, 1024]⟩
abbrev S1024 : Shape := ⟨1, ![1024]⟩
abbrev S1000x1024 : Shape := ⟨2, ![1000, 1024]⟩
abbrev S8192 : Shape := ⟨1, ![8192]⟩
abbrev S8192x2048 : Shape := ⟨2, ![8192, 2048]⟩
abbrev S1x2048 : Shape := ⟨2, ![1, 2048]⟩
abbrev S_ : Shape := ⟨0, ![]⟩
abbrev S1x1024 : Shape := ⟨2, ![1, 1024]⟩
abbrev S8192x1 : Shape := ⟨2, ![8192, 1]⟩
abbrev S1000 : Shape := ⟨1, ![1000]⟩
abbrev S1x1000 : Shape := ⟨2, ![1, 1000]⟩
abbrev S8192x1000 : Shape := ⟨2, ![8192, 1000]⟩
abbrev S1024x1000 : Shape := ⟨2, ![1024, 1000]⟩
abbrev S1000x8192 : Shape := ⟨2, ![1000, 8192]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S2048, .f32⟩
  | .hbm, ⟨3, _⟩ => ⟨S2048x1024, .f32⟩
  | .hbm, ⟨4, _⟩ => ⟨S1024, .f32⟩
  | .hbm, ⟨5, _⟩ => ⟨S1000x1024, .f32⟩
  | .hbm, ⟨6, _⟩ => ⟨S8192, .i32⟩
  | .hbm, ⟨7, _⟩ => ⟨S8192x2048, .f32⟩
  | .hbm, ⟨8, _⟩ => ⟨S1x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S1000x1024, .f32⟩
  | .hbm, ⟨23, _⟩ => ⟨S_, .f32⟩
  | .hbm, ⟨24, _⟩ => ⟨S1000, .f32⟩
  | .hbm, ⟨25, _⟩ => ⟨S1x1000, .f32⟩
  | .hbm, ⟨26, _⟩ => ⟨S8192x1000, .f32⟩
  | .hbm, ⟨27, _⟩ => ⟨S8192x1000, .f32⟩
  | .hbm, ⟨28, _⟩ => ⟨S8192x1000, .f32⟩
  | .hbm, ⟨29, _⟩ => ⟨S1024x1000, .f32⟩
  | .hbm, ⟨30, _⟩ => ⟨S8192x1000, .f32⟩
  | .hbm, ⟨31, _⟩ => ⟨S_, .f32⟩
  | .hbm, ⟨32, _⟩ => ⟨S8192x1000, .f32⟩
  | .hbm, ⟨33, _⟩ => ⟨S8192x1000, .f32⟩
  | .hbm, ⟨34, _⟩ => ⟨S8192x1000, .f32⟩
  | .hbm, ⟨35, _⟩ => ⟨S_, .f32⟩
  | .hbm, ⟨36, _⟩ => ⟨S8192x1000, .f32⟩
  | .hbm, ⟨37, _⟩ => ⟨S8192x1000, .f32⟩
  | .hbm, ⟨38, _⟩ => ⟨S8192x1000, .f32⟩
  | .hbm, ⟨39, _⟩ => ⟨S8192x1, .i32⟩
  | .hbm, ⟨40, _⟩ => ⟨S1x1000, .i32⟩
  | .hbm, ⟨41, _⟩ => ⟨S8192x1000, .i32⟩
  | .hbm, ⟨42, _⟩ => ⟨S8192x1000, .i32⟩
  | .hbm, ⟨43, _⟩ => ⟨S8192x1000, .i1⟩
  | .hbm, ⟨44, _⟩ => ⟨S8192x1000, .f32⟩
  | .hbm, ⟨45, _⟩ => ⟨S1000x8192, .f32⟩
  | .hbm, ⟨46, _⟩ => ⟨S1000x1024, .f32⟩
  | .hbm, ⟨47, _⟩ => ⟨S_, .f32⟩
  | .hbm, ⟨48, _⟩ => ⟨S1000, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  reducesTo_S8192x1024_S8192_d1 : S8192x1024.ReducesTo [1] S8192
  h_S_ : 0 < S_.numel
  bcast_S8192_S8192x1_0 : S8192.BroadcastsInDim S8192x1 (![0] : Fin 1 → Fin S8192x1.rank)
  reducesTo_S1000x1024_S1000_d1 : S1000x1024.ReducesTo [1] S1000
  bcast_S1000_S1x1000_1 : S1000.BroadcastsInDim S1x1000 (![1] : Fin 1 → Fin S1x1000.rank)
  bcast_S8192x1_S8192x1000_0_1 : S8192x1.BroadcastsInDim S8192x1000 (![0, 1] : Fin 2 → Fin S8192x1000.rank)
  bcast_S1x1000_S8192x1000_0_1 : S1x1000.BroadcastsInDim S8192x1000 (![0, 1] : Fin 2 → Fin S8192x1000.rank)
  transposes_S1000x1024_S1024x1000_1_0 : S1000x1024.Transposes [1, 0] S1024x1000
  bcast_S_S8192x1000 : S_.BroadcastsInDim S8192x1000 (![] : Fin 0 → Fin S8192x1000.rank)
  transposes_S8192x1000_S1000x8192_1_0 : S8192x1000.Transposes [1, 0] S1000x8192
  reducesTo_S8192x1000_S1000_d0 : S8192x1000.ReducesTo [0] S1000
  dot_S8192x1024_S1024x2048_S8192x2048_1_0_0_1_n_n_wf : DotDims.WF S8192x1024 S1024x2048 S8192x2048 [1] [0] [0] [1] [] []
  dot_S8192x2048_S2048x1024_S8192x1024_1_0_0_1_n_n_wf : DotDims.WF S8192x2048 S2048x1024 S8192x1024 [1] [0] [0] [1] [] []
  dot_S8192x1024_S1024x1000_S8192x1000_1_0_0_1_n_n_wf : DotDims.WF S8192x1024 S1024x1000 S8192x1000 [1] [0] [0] [1] [] []
  dot_S1000x8192_S8192x1024_S1000x1024_1_0_0_1_n_n_wf : DotDims.WF S1000x8192 S8192x1024 S1000x1024 [1] [0] [0] [1] [] []

variable [Facts₀]

def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf
def dot_S8192x1024_S1024x1000_S8192x1000_1_0_0_1_n_n : DotDims S8192x1024 S1024x1000 S8192x1000 where
  lhsContracting := [1]
  rhsContracting := [0]
  lhsNonContracting := [0]
  rhsNonContracting := [1]
  lhsBatch := []
  rhsBatch := []
  wf := dot_S8192x1024_S1024x1000_S8192x1000_1_0_0_1_n_n_wf
def dot_S1000x8192_S8192x1024_S1000x1024_1_0_0_1_n_n : DotDims S1000x8192 S8192x1024 S1000x1024 where
  lhsContracting := [1]
  rhsContracting := [0]
  lhsNonContracting := [0]
  rhsNonContracting := [1]
  lhsBatch := []
  rhsBatch := []
  wf := dot_S1000x8192_S8192x1024_S1000x1024_1_0_0_1_n_n_wf

class Facts : Prop extends Facts₀ where

variable [Facts]
-- ==== Proof.Cases.lean ====
/-
  What one grid step leaves in the two output blocks, as values of the step's input blocks.

  The body has two control cases: at the first step of a core's run of sixteen (`inner = 0`) it first stores a zero
  block into the update accumulator, at every other step it does not. In both cases the score block is one covering
  store of `-(max(x2 + p2 - 2·cross, 0))`, and the accumulator block is one covering store of
  `acc + onehotᵀ·enc`, where `acc` is the zero block just stored (first step) or what the step before left.
-/
import proofs.«134875_j59897613910017_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The score block of a step, from its input blocks: the negated clamped squared distance. -/
abbrev scoreBlk (x0 : Vec F S256x1024 .bf16) (x1 : Vec F S1024x2048 .bf16) (x2 : Vec F S1x2048 .f32) (x3 : Vec F S2048x1024 .bf16) (x4 : Vec F S1x1024 .f32) (x5 : Vec F S1024x1024 .bf16) (x6 : Vec F S1x1024 .f32) (x7 : Vec F S1x256 .i32) (x8 : Vec F S1024x256 .i32) : FVec F S256x1024 .f32 :=
  k0_pay1 (k0_pay6 x0 x1 x2 x3 x4 x5) (k0_pay7 x0 x1 x2 x3 x4 x6) (k0_pay8 (F := F))

/-- The accumulator block of a step, from its input blocks and the accumulator it finds. -/
abbrev updBlk (x0 : Vec F S256x1024 .bf16) (x1 : Vec F S1024x2048 .bf16) (x2 : Vec F S1x2048 .f32) (x3 : Vec F S2048x1024 .bf16) (x4 : Vec F S1x1024 .f32) (x5 : Vec F S1024x1024 .bf16) (x6 : Vec F S1x1024 .f32) (x7 : Vec F S1x256 .i32) (x8 : Vec F S1024x256 .i32) (acc : Vec F S1x1024x1024 .f32) : FVec F S1x1024x1024 .f32 :=
  k0_pay2 (k0_pay5 x0 x1 x2 x3 x4) x7 x8 acc

/-- A later step of a run leaves the score block in output 9. -/
theorem out_B_9 (c : Dev nD) (i : grid0.Coords) (arg2 : Memref sig .tc .vmem S256x1024 .bf16) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x256 .i32) (harg9 : arg9.IsWhole) (arg10 : Memref sig .tc .vmem S1024x256 .i32) (harg10 : arg10.IsWhole) (arg11 : Memref sig .tc .vmem S256x1024 .f32) (harg11 : arg11.IsWhole) (arg12 : Memref sig .tc .vmem S1x1024x1024 .f32) (harg12 : arg12.IsWhole) (hc0 : ¬cond0_0 i)
    (x0 : Vec F S256x1024 .bf16) (x1 : Vec F S1024x2048 .bf16) (x2 : Vec F S1x2048 .f32) (x3 : Vec F S2048x1024 .bf16) (x4 : Vec F S1x1024 .f32) (x5 : Vec F S1024x1024 .bf16) (x6 : Vec F S1x1024 .f32) (x7 : Vec F S1x256 .i32) (x8 : Vec F S1024x256 .i32) (xo10 : Vec F S1x1024x1024 .f32) :
    out0_B_9 c i arg2 harg2 arg3 harg3 arg4 harg4 arg5 harg5 arg6 harg6 arg7 harg7 arg8 harg8 arg9 harg9 arg10 harg10 arg11 harg11 arg12 harg12 hc0 x0 x1 x2 x3 x4 x5 x6 x7 x8 xo10 = scoreBlk x0 x1 x2 x3 x4 x5 x6 x7 x8 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 hc0 x0 x1 x2 x3 x4 x5 x6 x7 x8 xo10)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread,
    View.ld_unit_zero (S := S256x1024) hz2, View.ld_unit_zero (S := S1024x2048) hz2, View.ld_unit_zero (S := S1x2048) hz2, View.ld_unit_zero (S := S2048x1024) hz2, View.ld_unit_zero (S := S1x1024) hz2, View.ld_unit_zero (S := S1024x1024) hz2, View.ld_unit_zero (S := S1x256) hz2, View.ld_unit_zero (S := S1024x256) hz2, View.ld_unit_zero (S := S1x1024x1024) hz3]

/-- A later step of a run adds its product to the accumulator the step before left. -/
theorem out_B_10 (c : Dev nD) (i : grid0.Coords) (arg2 : Memref sig .tc .vmem S256x1024 .bf16) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x256 .i32) (harg9 : arg9.IsWhole) (arg10 : Memref sig .tc .vmem S1024x256 .i32) (harg10 : arg10.IsWhole) (arg11 : Memref sig .tc .vmem S256x1024 .f32) (harg11 : arg11.IsWhole) (arg12 : Memref sig .tc .vmem S1x1024x1024 .f32) (harg12 : arg12.IsWhole) (hc0 : ¬cond0_0 i)
    (x0 : Vec F S256x1024 .bf16) (x1 : Vec F S1024x2048 .bf16) (x2 : Vec F S1x2048 .f32) (x3 : Vec F S2048x1024 .bf16) (x4 : Vec F S1x1024 .f32) (x5 : Vec F S1024x1024 .bf16) (x6 : Vec F S1x1024 .f32) (x7 : Vec F S1x256 .i32) (x8 : Vec F S1024x256 .i32) (xo10 : Vec F S1x1024x1024 .f32) :
    out0_B_10 c i arg2 harg2 arg3 harg3 arg4 harg4 arg5 harg5 arg6 harg6 arg7 harg7 arg8 harg8 arg9 harg9 arg10 harg10 arg11 harg11 arg12 harg12 hc0 x0 x1 x2 x3 x4 x5 x6 x7 x8 xo10 = updBlk x0 x1 x2 x3 x4 x5 x6 x7 x8 xo10 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 hc0 x0 x1 x2 x3 x4 x5 x6 x7 x8 xo10)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg12.read_unread,
    View.ld_unit_zero (S := S256x1024) hz2, View.ld_unit_zero (S := S1024x2048) hz2, View.ld_unit_zero (S := S1x2048) hz2, View.ld_unit_zero (S := S2048x1024) hz2, View.ld_unit_zero (S := S1x1024) hz2, View.ld_unit_zero (S := S1024x1024) hz2, View.ld_unit_zero (S := S1x256) hz2, View.ld_unit_zero (S := S1024x256) hz2, View.ld_unit_zero (S := S1x1024x1024) hz3]

/-- The first step of a run leaves the score block in output 9. -/
theorem out_A_9 (c : Dev nD) (i : grid0.Coords) (arg2 : Memref sig .tc .vmem S256x1024 .bf16) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x256 .i32) (harg9 : arg9.IsWhole) (arg10 : Memref sig .tc .vmem S1024x256 .i32) (harg10 : arg10.IsWhole) (arg11 : Memref sig .tc .vmem S256x1024 .f32) (harg11 : arg11.IsWhole) (arg12 : Memref sig .tc .vmem S1x1024x1024 .f32) (harg12 : arg12.IsWhole) (hc0 : cond0_0 i)
    (x0 : Vec F S256x1024 .bf16) (x1 : Vec F S1024x2048 .bf16) (x2 : Vec F S1x2048 .f32) (x3 : Vec F S2048x1024 .bf16) (x4 : Vec F S1x1024 .f32) (x5 : Vec F S1024x1024 .bf16) (x6 : Vec F S1x1024 .f32) (x7 : Vec F S1x256 .i32) (x8 : Vec F S1024x256 .i32) :
    out0_A_9 c i arg2 harg2 arg3 harg3 arg4 harg4 arg5 harg5 arg6 harg6 arg7 harg7 arg8 harg8 arg9 harg9 arg10 harg10 arg11 harg11 arg12 harg12 hc0 x0 x1 x2 x3 x4 x5 x6 x7 x8 = scoreBlk x0 x1 x2 x3 x4 x5 x6 x7 x8 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread,
    View.ld_unit_zero (S := S256x1024) hz2, View.ld_unit_zero (S := S1024x2048) hz2, View.ld_unit_zero (S := S1x2048) hz2, View.ld_unit_zero (S := S2048x1024) hz2, View.ld_unit_zero (S := S1x1024) hz2, View.ld_unit_zero (S := S1024x1024) hz2, View.ld_unit_zero (S := S1x256) hz2, View.ld_unit_zero (S := S1024x256) hz2, View.ld_unit_zero (S := S1x1024x1024) hz3]

/-- The first step of a run stores the zero block, reads it back, and adds its product to it. -/
theorem out_A_10 (c : Dev nD) (i : grid0.Coords) (arg2 : Memref sig .tc .vmem S256x1024 .bf16) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x256 .i32) (harg9 : arg9.IsWhole) (arg10 : Memref sig .tc .vmem S1024x256 .i32) (harg10 : arg10.IsWhole) (arg11 : Memref sig .tc .vmem S256x1024 .f32) (harg11 : arg11.IsWhole) (arg12 : Memref sig .tc .vmem S1x1024x1024 .f32) (harg12 : arg12.IsWhole) (hc0 : cond0_0 i)
    (x0 : Vec F S256x1024 .bf16) (x1 : Vec F S1024x2048 .bf16) (x2 : Vec F S1x2048 .f32) (x3 : Vec F S2048x1024 .bf16) (x4 : Vec F S1x1024 .f32) (x5 : Vec F S1024x1024 .bf16) (x6 : Vec F S1x1024 .f32) (x7 : Vec F S1x256 .i32) (x8 : Vec F S1024x256 .i32) :
    out0_A_10 c i arg2 harg2 arg3 harg3 arg4 harg4 arg5 harg5 arg6 harg6 arg7 harg7 arg8 harg8 arg9 harg9 arg10 harg10 arg11 harg11 arg12 harg12 hc0 x0 x1 x2 x3 x4 x5 x6 x7 x8 = updBlk x0 x1 x2 x3 x4 x5 x6 x7 x8 (k0_pay3 (F := F)) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun0_A
  dsimp only
  sl_unfold_words
  rw [View.canon_cons_unit_zero (S := S1x1024x1024) hz3, View.readCov_unit_zero (S := S1x1024x1024) _ hz3]
  simp only [View.readAt_eq_ld, harg2.read_unread, harg3.read_unread, harg4.read_unread, harg5.read_unread, harg6.read_unread, harg7.read_unread, harg8.read_unread, harg9.read_unread, harg10.read_unread, harg12.read_unread,
    View.ld_unit_zero (S := S256x1024) hz2, View.ld_unit_zero (S := S1024x2048) hz2, View.ld_unit_zero (S := S1x2048) hz2, View.ld_unit_zero (S := S2048x1024) hz2, View.ld_unit_zero (S := S1x1024) hz2, View.ld_unit_zero (S := S1024x1024) hz2, View.ld_unit_zero (S := S1x256) hz2, View.ld_unit_zero (S := S1024x256) hz2, View.ld_unit_zero (S := S1x1024x1024) hz3]

end Cert.KernelIdeal.Cases
end
-- ==== Proof.Steps.lean ====
/-
  What the two output blocks hold after each grid step, in closed form.

  The score block after step t is the step's score value, whichever control case the step is in. The accumulator
  block is carried along a core's run of sixteen steps: after step t it is the fold, over the steps 16·(t / 16) … t of
  that run, of "add this step's product", started from the zero block at the run's first step.
-/
import proofs.«134875_j59897613910017_2_alg».proof.Proof.Gen.KernelIdeal.Frame
import proofs.«134875_j59897613910017_2_alg».proof.Proof.Cases
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Steps

open Cert.KernelIdeal Cert.KernelIdeal.Gen

variable {F : FTy → Type} [FloatOps F]
variable (m : (ℓ : Loc nD τ sig) → Buf (Elt F) ℓ)

/-- The score value of step t: the score arithmetic of the step's input blocks. -/
abbrev scoreAt (c : Dev nD) (t : Fin cfg0.N) : FVec F S256x1024 .f32 :=
  Cases.scoreBlk (iblk m c 0 t) (iblk m c 1 t) (iblk m c 2 t) (iblk m c 3 t) (iblk m c 4 t) (iblk m c 5 t) (iblk m c 6 t) (iblk m c 7 t) (iblk m c 8 t)

/-- The accumulator after step t, from the accumulator the step finds. -/
abbrev updAt (c : Dev nD) (t : Fin cfg0.N) (acc : Vec F S1x1024x1024 .f32) : FVec F S1x1024x1024 .f32 :=
  Cases.updBlk (iblk m c 0 t) (iblk m c 1 t) (iblk m c 2 t) (iblk m c 3 t) (iblk m c 4 t) (iblk m c 5 t) (iblk m c 6 t) (iblk m c 7 t) (iblk m c 8 t) acc

set_option maxHeartbeats 4000000 in
/-- After every step the score block holds the step's score value. -/
theorem outs_fst (c : Dev nD) (t : Fin cfg0.N) : (outsAt0 m c t.val t.isLt).1 = scoreAt m c t := by
  by_cases h0 : t.val % 16 = 0
  · rw [outsAt0_A m c t h0]
    dsimp only
    exact Cases.out_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) (iblk m c 6 t) (iblk m c 7 t) (iblk m c 8 t)
  · rw [outsAt0_B m c t h0]
    dsimp only
    exact Cases.out_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t)
      (outsAt0 m c (t.val - 1) (Nat.lt_of_le_of_lt (Nat.sub_le _ _) t.isLt)).2

set_option maxHeartbeats 4000000 in
/-- At the first step of a run the accumulator is the step's product added to the zero block. -/
theorem outs_snd_first (c : Dev nD) (n : Nat) (h : n < cfg0.N) (h0 : n % 16 = 0) :
    (outsAt0 m c n h).2 = updAt m c ⟨n, h⟩ (k0_pay3 (F := F)) := by
  have e := outsAt0_A m c ⟨n, h⟩ h0
  rw [show outsAt0 m c n h = outsAt0 m c (⟨n, h⟩ : Fin cfg0.N).val (⟨n, h⟩ : Fin cfg0.N).isLt from rfl, e]
  dsimp only
  exact Cases.out_A_10 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) (ms0_10 ⟨n, h⟩) (hs0_10 ⟨n, h⟩) ((hcond0_0 ⟨n, h⟩).mpr h0) (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (iblk m c 7 ⟨n, h⟩) (iblk m c 8 ⟨n, h⟩)

set_option maxHeartbeats 4000000 in
/-- At a later step of a run the accumulator is the step's product added to what the step before left. -/
theorem outs_snd_step (c : Dev nD) (n : Nat) (h : n + 1 < cfg0.N) (h0 : ¬(n + 1) % 16 = 0) :
    (outsAt0 m c (n + 1) h).2 = updAt m c ⟨n + 1, h⟩ (outsAt0 m c n (Nat.lt_of_succ_lt h)).2 := by
  have e := outsAt0_B m c ⟨n + 1, h⟩ h0
  rw [show outsAt0 m c (n + 1) h = outsAt0 m c (⟨n + 1, h⟩ : Fin cfg0.N).val (⟨n + 1, h⟩ : Fin cfg0.N).isLt from rfl, e]
  dsimp only
  exact Cases.out_B_10 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (fun hh => h0 ((hcond0_0 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩)
    (outsAt0 m c n (Nat.lt_of_succ_lt h)).2

set_option maxHeartbeats 4000000 in
/-- So after step t the accumulator is the fold over the steps of t's run up to t. -/
theorem outs_snd (c : Dev nD) (t : Nat) (ht : t < cfg0.N) (h' : 16 * (t / 16) + t % 16 < cfg0.N) :
    (outsAt0 m c t ht).2
      = Pipeline.accAt (fun n h => updAt m c ⟨n, h⟩ (k0_pay3 (F := F))) (fun n h acc => updAt m c ⟨n, h⟩ acc) (16 * (t / 16)) (t % 16) h' :=
  Pipeline.eq_accAt_of_mod (fun n h => (outsAt0 m c n h).2) 16 _ _ (outs_snd_first m c) (outs_snd_step m c) (by decide) t ht h'

end Cert.KernelIdeal.Steps
end
-- ==== Proof.LibKeepdims.lean ====
/-
  Layout operations of a two-axis block read at coordinates: the casts between a block [1, 1, a, b] and its matrix
  [a, b], and the column forms a row reduction kept as a column needs — a vector [a] cast to a column [a, 1], and a
  column [a, 1] broadcast along b lanes. Each is the general read-at-an-index lemma of the operation with both indices
  written by coordinates, the coordinates' arithmetic done once here.
-/
import Idealize.ShloMosaic.Lib.Pipeline.Value
import Idealize.ShloMosaic.Lib.ValueIdx

namespace Cert.LibKeepdims

open Idealize.ShloMosaic Idealize.ShloMosaic.ValueIdx

variable {α : Type}

/-- A [1, 1, a, b] block cast to the matrix [a, b] reads, at (i, j), the block at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A matrix [a, b] cast to the block [1, 1, a, b] reads, at (u, v, i, j), the matrix at (i, j), whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A vector [a] cast to the column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along b lanes reads, at (i, j), the column at (i, 0). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- So a vector [a] kept as a column and broadcast along b lanes reads, at (i, j), the vector at i. -/
theorem column_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (i : Fin a) (j : Fin b) :
    broadcastTo ⟨2, ![a, b]⟩ (shapeCast ⟨2, ![a, 1]⟩ x h₁) h₂ (ix2 i j) = x (ix1 i) :=
  (broadcastTo_a1_ab_apply _ h₂ i j).trans (shapeCast_a_a1_apply x h₁ i 0)

end Cert.LibKeepdims
-- ==== Proof.BodyValue.lean ====
/-
  The step's arithmetic read at an element, over the extended reals.

  From the input blocks of a grid step (256 rows of the batch):
    hidden   h[r, j]   = max(Σₖ x[r, k]·W1[k, j] + b1[j], 0)
    encoding enc[r, e] = Σⱼ h[r, j]·W2[j, e] + b2[e]
    score    s[r, q]   = 0 − max((Σₑ enc[r, e]² + p2[q]) − 2·Σₑ enc[r, e]·protoT[e, q], 0)
    update   u[k, e]   = acc[k, e] + Σᵣ onehot[k, r]·enc[r, e],  onehot[k, r] = 1 when the table's row number equals label r.
  Changes of float format are the identity here, and a product into the zero accumulator is the plain sum.
-/
import proofs.«134875_j59897613910017_2_alg».proof.Proof.Gen.KernelIdeal.Frame
import proofs.«134875_j59897613910017_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen Idealize.ShloMosaic.ValueIdx

theorem mm1_l0 (i : S256x2048.Idx) (q : dot_S256x1024_S1024x2048_S256x2048_1_0_0_1_n_n.contr.Idx) : (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem mm1_l1 (i : S256x2048.Idx) (q : dot_S256x1024_S1024x2048_S256x2048_1_0_0_1_n_n.contr.Idx) : (dot_S256x1024_S1024x2048_S256x2048_1_0_0_1_n_n.lhsIdx i q 1).val = (q ⟨0, by decide⟩).val :=
  dot_S256x1024_S1024x2048_S256x2048_1_0_0_1_n_n.lhsIdx_val_of_single rfl i q
theorem mm1_r0 (i : S256x2048.Idx) (q : dot_S256x1024_S1024x2048_S256x2048_1_0_0_1_n_n.contr.Idx) : (dot_S256x1024_S1024x2048_S256x2048_1_0_0_1_n_n.rhsIdx i q 0).val = (q ⟨0, by decide⟩).val :=
  dot_S256x1024_S1024x2048_S256x2048_1_0_0_1_n_n.rhsIdx_val_of_single rfl i q
theorem mm1_r1 (i : S256x2048.Idx) (q : dot_S256x1024_S1024x2048_S256x2048_1_0_0_1_n_n.contr.Idx) : (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl
/-- The product of a [256, 1024] block with a [1024, 2048] block into the zero accumulator, at (p, q): the sum over the
    contracted axis. -/
theorem mm1 (l : FVec Ideal S256x1024 .bf16) (r : FVec Ideal S1024x2048 .bf16) (p : Fin 256) (q : Fin 2048) :
    matmul dot_S256x1024_S1024x2048_S256x2048_1_0_0_1_n_n none l r (constant (F := Ideal) S256x2048 .f32 0x00000000#32) (ix2 p q) = ∑ k : Fin 1024, l (ix2 p k) * r (ix2 k q) := by
  simp only [matmul]
  rw [Ideal.matmul_constant_zero_apply, ← Equiv.sum_comp (ValueIdx.contrEquiv1 dot_S256x1024_S1024x2048_S256x2048_1_0_0_1_n_n 1024 rfl rfl).symm]
  refine Finset.sum_congr rfl fun k _ => ?_
  have hk := ValueIdx.contrEquiv1_symm_val dot_S256x1024_S1024x2048_S256x2048_1_0_0_1_n_n 1024 rfl rfl k
  have el : dot_S256x1024_S1024x2048_S256x2048_1_0_0_1_n_n.lhsIdx (ix2 p q) ((ValueIdx.contrEquiv1 dot_S256x1024_S1024x2048_S256x2048_1_0_0_1_n_n 1024 rfl rfl).symm k) = ix2 p k := funext fun a => Fin.ext (by
    match a with
    | ⟨0, _⟩ => exact mm1_l0 _ _
    | ⟨1, _⟩ => exact (mm1_l1 _ _).trans hk)
  have er : dot_S256x1024_S1024x2048_S256x2048_1_0_0_1_n_n.rhsIdx (ix2 p q) ((ValueIdx.contrEquiv1 dot_S256x1024_S1024x2048_S256x2048_1_0_0_1_n_n 1024 rfl rfl).symm k) = ix2 k q := funext fun a => Fin.ext (by
    match a with
    | ⟨0, _⟩ => exact (mm1_r0 _ _).trans hk
    | ⟨1, _⟩ => exact mm1_r1 _ _)
  rw [el, er]

theorem mm2_l0 (i : S256x1024.Idx) (q : dot_S256x2048_S2048x1024_S256x1024_1_0_0_1_n_n.contr.Idx) : (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem mm2_l1 (i : S256x1024.Idx) (q : dot_S256x2048_S2048x1024_S256x1024_1_0_0_1_n_n.contr.Idx) : (dot_S256x2048_S2048x1024_S256x1024_1_0_0_1_n_n.lhsIdx i q 1).val = (q ⟨0, by decide⟩).val :=
  dot_S256x2048_S2048x1024_S256x1024_1_0_0_1_n_n.lhsIdx_val_of_single rfl i q
theorem mm2_r0 (i : S256x1024.Idx) (q : dot_S256x2048_S2048x1024_S256x1024_1_0_0_1_n_n.contr.Idx) : (dot_S256x2048_S2048x1024_S256x1024_1_0_0_1_n_n.rhsIdx i q 0).val = (q ⟨0, by decide⟩).val :=
  dot_S256x2048_S2048x1024_S256x1024_1_0_0_1_n_n.rhsIdx_val_of_single rfl i q
theorem mm2_r1 (i : S256x1024.Idx) (q : dot_S256x2048_S2048x1024_S256x1024_1_0_0_1_n_n.contr.Idx) : (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl
/-- The product of a [256, 2048] block with a [2048, 1024] block into the zero accumulator, at (p, q): the sum over the
    contracted axis. -/
theorem mm2 (l : FVec Ideal S256x2048 .bf16) (r : FVec Ideal S2048x1024 .bf16) (p : Fin 256) (q : Fin 1024) :
    matmul dot_S256x2048_S2048x1024_S256x1024_1_0_0_1_n_n none l r (constant (F := Ideal) S256x1024 .f32 0x00000000#32) (ix2 p q) = ∑ k : Fin 2048, l (ix2 p k) * r (ix2 k q) := by
  simp only [matmul]
  rw [Ideal.matmul_constant_zero_apply, ← Equiv.sum_comp (ValueIdx.contrEquiv1 dot_S256x2048_S2048x1024_S256x1024_1_0_0_1_n_n 2048 rfl rfl).symm]
  refine Finset.sum_congr rfl fun k _ => ?_
  have hk := ValueIdx.contrEquiv1_symm_val dot_S256x2048_S2048x1024_S256x1024_1_0_0_1_n_n 2048 rfl rfl k
  have el : dot_S256x2048_S2048x1024_S256x1024_1_0_0_1_n_n.lhsIdx (ix2 p q) ((ValueIdx.contrEquiv1 dot_S256x2048_S2048x1024_S256x1024_1_0_0_1_n_n 2048 rfl rfl).symm k) = ix2 p k := funext fun a => Fin.ext (by
    match a with
    | ⟨0, _⟩ => exact mm2_l0 _ _
    | ⟨1, _⟩ => exact (mm2_l1 _ _).trans hk)
  have er : dot_S256x2048_S2048x1024_S256x1024_1_0_0_1_n_n.rhsIdx (ix2 p q) ((ValueIdx.contrEquiv1 dot_S256x2048_S2048x1024_S256x1024_1_0_0_1_n_n 2048 rfl rfl).symm k) = ix2 k q := funext fun a => Fin.ext (by
    match a with
    | ⟨0, _⟩ => exact (mm2_r0 _ _).trans hk
    | ⟨1, _⟩ => exact mm2_r1 _ _)
  rw [el, er]

theorem mm3_l0 (i : S256x1024.Idx) (q : dot_S256x1024_S1024x1024_S256x1024_1_0_0_1_n_n.contr.Idx) : (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem mm3_l1 (i : S256x1024.Idx) (q : dot_S256x1024_S1024x1024_S256x1024_1_0_0_1_n_n.contr.Idx) : (dot_S256x1024_S1024x1024_S256x1024_1_0_0_1_n_n.lhsIdx i q 1).val = (q ⟨0, by decide⟩).val :=
  dot_S256x1024_S1024x1024_S256x1024_1_0_0_1_n_n.lhsIdx_val_of_single rfl i q
theorem mm3_r0 (i : S256x1024.Idx) (q : dot_S256x1024_S1024x1024_S256x1024_1_0_0_1_n_n.contr.Idx) : (dot_S256x1024_S1024x1024_S256x1024_1_0_0_1_n_n.rhsIdx i q 0).val = (q ⟨0, by decide⟩).val :=
  dot_S256x1024_S1024x1024_S256x1024_1_0_0_1_n_n.rhsIdx_val_of_single rfl i q
theorem mm3_r1 (i : S256x1024.Idx) (q : dot_S256x1024_S1024x1024_S256x1024_1_0_0_1_n_n.contr.Idx) : (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl
/-- The product of a [256, 1024] block with a [1024, 1024] block into the zero accumulator, at (p, q): the sum over the
    contracted axis. -/
theorem mm3 (l : FVec Ideal S256x1024 .bf16) (r : FVec Ideal S1024x1024 .bf16) (p : Fin 256) (q : Fin 1024) :
    matmul dot_S256x1024_S1024x1024_S256x1024_1_0_0_1_n_n none l r (constant (F := Ideal) S256x1024 .f32 0x00000000#32) (ix2 p q) = ∑ k : Fin 1024, l (ix2 p k) * r (ix2 k q) := by
  simp only [matmul]
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 p q) ((ValueIdx.contrEquiv1 dot_S256x1024_S1024x1024_S256x1024_1_0_0_1_n_n 1024 rfl rfl).symm k) = ix2 p k := funext fun a => Fin.ext (by
    match a with
    | ⟨0, _⟩ => exact mm3_l0 _ _
    | ⟨1, _⟩ => exact (mm3_l1 _ _).trans hk)
  have er : dot_S256x1024_S1024x1024_S256x1024_1_0_0_1_n_n.rhsIdx (ix2 p q) ((ValueIdx.contrEquiv1 dot_S256x1024_S1024x1024_S256x1024_1_0_0_1_n_n 1024 rfl rfl).symm k) = ix2 k q := funext fun a => Fin.ext (by
    match a with
    | ⟨0, _⟩ => exact (mm3_r0 _ _).trans hk
    | ⟨1, _⟩ => exact mm3_r1 _ _)
  rw [el, er]

theorem mm4_l0 (i : S1024x1024.Idx) (q : dot_S1024x256_S256x1024_S1024x1024_1_0_0_1_n_n.contr.Idx) : (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem mm4_l1 (i : S1024x1024.Idx) (q : dot_S1024x256_S256x1024_S1024x1024_1_0_0_1_n_n.contr.Idx) : (dot_S1024x256_S256x1024_S1024x1024_1_0_0_1_n_n.lhsIdx i q 1).val = (q ⟨0, by decide⟩).val :=
  dot_S1024x256_S256x1024_S1024x1024_1_0_0_1_n_n.lhsIdx_val_of_single rfl i q
theorem mm4_r0 (i : S1024x1024.Idx) (q : dot_S1024x256_S256x1024_S1024x1024_1_0_0_1_n_n.contr.Idx) : (dot_S1024x256_S256x1024_S1024x1024_1_0_0_1_n_n.rhsIdx i q 0).val = (q ⟨0, by decide⟩).val :=
  dot_S1024x256_S256x1024_S1024x1024_1_0_0_1_n_n.rhsIdx_val_of_single rfl i q
theorem mm4_r1 (i : S1024x1024.Idx) (q : dot_S1024x256_S256x1024_S1024x1024_1_0_0_1_n_n.contr.Idx) : (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl
/-- The product of a [1024, 256] block with a [256, 1024] block into the zero accumulator, at (p, q): the sum over the
    contracted axis. -/
theorem mm4 (l : FVec Ideal S1024x256 .bf16) (r : FVec Ideal S256x1024 .bf16) (p : Fin 1024) (q : Fin 1024) :
    matmul dot_S1024x256_S256x1024_S1024x1024_1_0_0_1_n_n none l r (constant (F := Ideal) S1024x1024 .f32 0x00000000#32) (ix2 p q) = ∑ k : Fin 256, l (ix2 p k) * r (ix2 k q) := by
  simp only [matmul]
  rw [Ideal.matmul_constant_zero_apply, ← Equiv.sum_comp (ValueIdx.contrEquiv1 dot_S1024x256_S256x1024_S1024x1024_1_0_0_1_n_n 256 rfl rfl).symm]
  refine Finset.sum_congr rfl fun k _ => ?_
  have hk := ValueIdx.contrEquiv1_symm_val dot_S1024x256_S256x1024_S1024x1024_1_0_0_1_n_n 256 rfl rfl k
  have el : dot_S1024x256_S256x1024_S1024x1024_1_0_0_1_n_n.lhsIdx (ix2 p q) ((ValueIdx.contrEquiv1 dot_S1024x256_S256x1024_S1024x1024_1_0_0_1_n_n 256 rfl rfl).symm k) = ix2 p k := funext fun a => Fin.ext (by
    match a with
    | ⟨0, _⟩ => exact mm4_l0 _ _
    | ⟨1, _⟩ => exact (mm4_l1 _ _).trans hk)
  have er : dot_S1024x256_S256x1024_S1024x1024_1_0_0_1_n_n.rhsIdx (ix2 p q) ((ValueIdx.contrEquiv1 dot_S1024x256_S256x1024_S1024x1024_1_0_0_1_n_n 256 rfl rfl).symm k) = ix2 k q := funext fun a => Fin.ext (by
    match a with
    | ⟨0, _⟩ => exact (mm4_r0 _ _).trans hk
    | ⟨1, _⟩ => exact mm4_r1 _ _)
  rw [el, er]

/-- The encoding of the step's rows, at (r, e). -/
theorem enc_blk (x0 : FVec Ideal S256x1024 .bf16) (x1 : FVec Ideal S1024x2048 .bf16) (x2 : FVec Ideal S1x2048 .f32) (x3 : FVec Ideal S2048x1024 .bf16) (x4 : FVec Ideal S1x1024 .f32) (r : Fin 256) (e : Fin 1024) :
    k0_pay4 (F := Ideal) x0 x1 x2 x3 x4 (ix2 r e)
      = (∑ j : Fin 2048, max ((∑ k : Fin 1024, x0 (ix2 r k) * x1 (ix2 k j)) + x2 (ix2 (0 : Fin 1) j)) (Ideal.ofBits .f32 0x00000000#32)
          * x3 (ix2 j e)) + x4 (ix2 (0 : Fin 1) e) := by
  unfold k0_pay4
  simp only [shapeCast_self, addf_apply, maximumf_apply, truncf_apply, broadcast_apply, mm2, mm1, broadcastTo_1b_ab_apply]
  rfl

/-- The encoding in the format the later products read it in is the same number. -/
theorem enc_bf_blk (x0 : FVec Ideal S256x1024 .bf16) (x1 : FVec Ideal S1024x2048 .bf16) (x2 : FVec Ideal S1x2048 .f32) (x3 : FVec Ideal S2048x1024 .bf16) (x4 : FVec Ideal S1x1024 .f32) (r : Fin 256) (e : Fin 1024) :
    k0_pay5 (F := Ideal) x0 x1 x2 x3 x4 (ix2 r e) = k0_pay4 (F := Ideal) x0 x1 x2 x3 x4 (ix2 r e) := rfl

/-- A lane sum of a [256, 1024] block into [256], started from the zero word, at row r: the sum along the row. -/
theorem rowsum (src : FVec Ideal S256x1024 .f32) (hφ : FKind.Formats .f32) (hacc : (0x00000000#32 : BitVec 32) = 0x00000000#32)
    (r : Fin 256) :
    multiReduction .add [1] S256 src 0x00000000#32 reduces_S256x1024_S256 hφ hacc (ix1 r) = ∑ e : Fin 1024, src (ix2 r e) := by
  refine (Ideal.multiReduction_add_single src 0x00000000#32 reduces_S256x1024_S256 hφ hacc (ix1 r)).trans ?_
  refine Finset.sum_congr rfl fun e _ => ?_
  exact congrArg src (funext fun a => Fin.ext (by match a with | ⟨0, _⟩ => rfl | ⟨1, _⟩ => rfl))

/-- The squared norm of row r plus the prototype norm of column q. -/
theorem norms_blk (x0 : FVec Ideal S256x1024 .bf16) (x1 : FVec Ideal S1024x2048 .bf16) (x2 : FVec Ideal S1x2048 .f32) (x3 : FVec Ideal S2048x1024 .bf16) (x4 : FVec Ideal S1x1024 .f32) (x6 : FVec Ideal S1x1024 .f32) (r : Fin 256) (q : Fin 1024) :
    k0_pay7 (F := Ideal) x0 x1 x2 x3 x4 x6 (ix2 r q)
      = (∑ e : Fin 1024, k0_pay4 (F := Ideal) x0 x1 x2 x3 x4 (ix2 r e) * k0_pay4 (F := Ideal) x0 x1 x2 x3 x4 (ix2 r e))
          + x6 (ix2 (0 : Fin 1) q) := by
  unfold k0_pay7
  simp only [shapeCast_self, addf_apply, broadcastTo_1b_ab_apply, Cert.LibKeepdims.column_apply]
  exact congrArg (· + x6 (ix2 (0 : Fin 1) q)) (rowsum _ _ _ r)

/-- The cross term of row r with column q of the transposed prototype table. -/
theorem cross_blk (x0 : FVec Ideal S256x1024 .bf16) (x1 : FVec Ideal S1024x2048 .bf16) (x2 : FVec Ideal S1x2048 .f32) (x3 : FVec Ideal S2048x1024 .bf16) (x4 : FVec Ideal S1x1024 .f32) (x5 : FVec Ideal S1024x1024 .bf16) (r : Fin 256) (q : Fin 1024) :
    k0_pay6 (F := Ideal) x0 x1 x2 x3 x4 x5 (ix2 r q)
      = ∑ e : Fin 1024, k0_pay4 (F := Ideal) x0 x1 x2 x3 x4 (ix2 r e) * x5 (ix2 e q) := by
  unfold k0_pay6
  simp only [shapeCast_self, mm3]
  rfl

/-- The score block at (r, q). -/
theorem score_blk (x0 : FVec Ideal S256x1024 .bf16) (x1 : FVec Ideal S1024x2048 .bf16) (x2 : FVec Ideal S1x2048 .f32) (x3 : FVec Ideal S2048x1024 .bf16) (x4 : FVec Ideal S1x1024 .f32) (x5 : FVec Ideal S1024x1024 .bf16) (x6 : FVec Ideal S1x1024 .f32) (r : Fin 256) (q : Fin 1024) :
    k0_pay1 (F := Ideal) (k0_pay6 x0 x1 x2 x3 x4 x5) (k0_pay7 x0 x1 x2 x3 x4 x6) (k0_pay8 (F := Ideal)) (ix2 r q)
      = Ideal.ofBits .f32 0x00000000#32
          - max (((∑ e : Fin 1024, k0_pay4 (F := Ideal) x0 x1 x2 x3 x4 (ix2 r e) * k0_pay4 (F := Ideal) x0 x1 x2 x3 x4 (ix2 r e))
                    + x6 (ix2 (0 : Fin 1) q))
                  - Ideal.ofBits .f32 0x40000000#32 * ∑ e : Fin 1024, k0_pay4 (F := Ideal) x0 x1 x2 x3 x4 (ix2 r e) * x5 (ix2 e q))
              (Ideal.ofBits .f32 0x00000000#32) := by
  rw [← cross_blk, ← norms_blk]
  rfl

/-- One row of the one-hot table: 1 where the table's row number is the label of lane r. -/
def hot (x7 : IVec S1x256 32) (x8 : IVec S1024x256 32) (k : Fin 1024) (r : Fin 256) : EReal :=
  FloatOps.sitofp (F := Ideal) .f32 ((IntOp.cmpi .eq (x8 (ix2 k r)) (x7 (ix2 (0 : Fin 1) r))).setWidth 32)

/-- One accumulation step at (k, e): what the accumulator held plus the one-hot rows times the encoding. -/
theorem upd_blk (x0 : FVec Ideal S256x1024 .bf16) (x1 : FVec Ideal S1024x2048 .bf16) (x2 : FVec Ideal S1x2048 .f32) (x3 : FVec Ideal S2048x1024 .bf16) (x4 : FVec Ideal S1x1024 .f32) (x7 : IVec S1x256 32) (x8 : IVec S1024x256 32) (acc : FVec Ideal S1x1024x1024 .f32)
    (u : Fin 1) (k : Fin 1024) (e : Fin 1024) :
    k0_pay2 (F := Ideal) (k0_pay5 x0 x1 x2 x3 x4) x7 x8 acc (ix3 u k e)
      = acc (ix3 (0 : Fin 1) k e) + ∑ r : Fin 256, hot x7 x8 k r * k0_pay4 (F := Ideal) x0 x1 x2 x3 x4 (ix2 r e) := by
  unfold k0_pay2
  simp only [shapeCast_self, shapeCast_ab_1ab_apply, addf_apply, shapeCast_1ab_ab_apply, mm4]
  refine congrArg (acc (ix3 (0 : Fin 1) k e) + ·) (Finset.sum_congr rfl fun r _ => ?_)
  show FloatOps.sitofp (F := Ideal) .f32 ((IntOp.cmpi .eq (x8 (ix2 k r)) (broadcastTo S1024x256 x7 broadcasts_S1x256_S1024x256 (ix2 k r))).setWidth 32)
      * k0_pay4 (F := Ideal) x0 x1 x2 x3 x4 (ix2 r e) = _
  rw [broadcastTo_1b_ab_apply]
  rfl

/-- The zero block the first step of a run stores, at any element. -/
theorem zero_blk (y : S1x1024x1024.Idx) : k0_pay3 (F := Ideal) y = Ideal.ofBits .f32 0x00000000#32 := by
  obtain ⟨u, k, e, rfl⟩ : ∃ (u : Fin 1) (k : Fin 1024) (e : Fin 1024), y = ix3 u k e := ⟨y 0, y 1, y 2, eq_ix3 y⟩
  unfold k0_pay3
  rw [shapeCast_ab_1ab_apply]
  rfl

end Cert.KernelIdeal.Body
end
-- ==== Proof.Blocks.lean ====
/-
  The input blocks of a grid step, read off the arrays the grid starts from.

  Step t (of 32: core t / 16, inner step t % 16) reads rows 256·t … 256·t + 255 of the batch and the same range of the
  labels; every other operand is resident: its block is the whole array at every step. The score block of step t is
  rows 256·t … of the score array, and the accumulator block is plane t / 16 of the two-plane update array.
-/
import proofs.«134875_j59897613910017_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

/-- The printed index maps at step t, axis by axis. -/
structure IdxFacts (t : Fin cfg0.N) : Prop where
  w0 : win0_0.index t (0 : Fin 2) = t.val ∧ win0_0.index t (1 : Fin 2) = 0
  w1 : win0_1.index t (0 : Fin 2) = 0 ∧ win0_1.index t (1 : Fin 2) = 0
  w2 : win0_2.index t (0 : Fin 2) = 0 ∧ win0_2.index t (1 : Fin 2) = 0
  w3 : win0_3.index t (0 : Fin 2) = 0 ∧ win0_3.index t (1 : Fin 2) = 0
  w4 : win0_4.index t (0 : Fin 2) = 0 ∧ win0_4.index t (1 : Fin 2) = 0
  w5 : win0_5.index t (0 : Fin 2) = 0 ∧ win0_5.index t (1 : Fin 2) = 0
  w6 : win0_6.index t (0 : Fin 2) = 0 ∧ win0_6.index t (1 : Fin 2) = 0
  w7 : win0_7.index t (0 : Fin 2) = 0 ∧ win0_7.index t (1 : Fin 2) = t.val
  w8 : win0_8.index t (0 : Fin 2) = 0 ∧ win0_8.index t (1 : Fin 2) = 0
  w9 : win0_9.index t (0 : Fin 2) = t.val ∧ win0_9.index t (1 : Fin 2) = 0
  w10 : win0_10.index t (0 : Fin 3) = t.val / 16 ∧ win0_10.index t (1 : Fin 3) = 0 ∧ win0_10.index t (2 : Fin 3) = 0

instance (t : Fin cfg0.N) : Decidable (IdxFacts t) :=
  decidable_of_iff
    ((win0_0.index t (0 : Fin 2) = t.val ∧ win0_0.index t (1 : Fin 2) = 0) ∧ (win0_1.index t (0 : Fin 2) = 0 ∧ win0_1.index t (1 : Fin 2) = 0)
      ∧ (win0_2.index t (0 : Fin 2) = 0 ∧ win0_2.index t (1 : Fin 2) = 0) ∧ (win0_3.index t (0 : Fin 2) = 0 ∧ win0_3.index t (1 : Fin 2) = 0)
      ∧ (win0_4.index t (0 : Fin 2) = 0 ∧ win0_4.index t (1 : Fin 2) = 0) ∧ (win0_5.index t (0 : Fin 2) = 0 ∧ win0_5.index t (1 : Fin 2) = 0)
      ∧ (win0_6.index t (0 : Fin 2) = 0 ∧ win0_6.index t (1 : Fin 2) = 0) ∧ (win0_7.index t (0 : Fin 2) = 0 ∧ win0_7.index t (1 : Fin 2) = t.val)
      ∧ (win0_8.index t (0 : Fin 2) = 0 ∧ win0_8.index t (1 : Fin 2) = 0) ∧ (win0_9.index t (0 : Fin 2) = t.val ∧ win0_9.index t (1 : Fin 2) = 0)
      ∧ (win0_10.index t (0 : Fin 3) = t.val / 16 ∧ win0_10.index t (1 : Fin 3) = 0 ∧ win0_10.index t (2 : Fin 3) = 0))
    ⟨fun ⟨a0, a1, a2, a3, a4, a5, a6, a7, a8, a9, a10⟩ => ⟨a0, a1, a2, a3, a4, a5, a6, a7, a8, a9, a10⟩,
     fun h => ⟨h.w0, h.w1, h.w2, h.w3, h.w4, h.w5, h.w6, h.w7, h.w8, h.w9, h.w10⟩⟩

/-- Decided once over the 32 steps. -/
theorem idx_facts : ∀ t : Fin cfg0.N, IdxFacts t :=
  (by decide +kernel : ∀ t : Fin grid0.N, IdxFacts t)

theorem lt32 (t : Fin cfg0.N) : t.val < 32 := lt_of_lt_of_eq t.isLt N_0

/-- Global row (or label position) of lane r of step t. -/
def row (t : Fin cfg0.N) (r : Fin 256) : Fin 8192 :=
  ⟨256 * t.val + r.val, by have := lt32 t; have := r.isLt; omega⟩

variable {F : FTy → Type} [FloatOps F]
variable (m : (ℓ : Loc nD τ sig) → Buf (Elt F) ℓ)

/-- The batch block of step t is rows 256·t … of the batch. -/
theorem blk0_at (c : Dev nD) (t : Fin cfg0.N) (r : Fin 256) (k : Fin 1024) :
    (iblk m c 0 t : FVec F S256x1024 .bf16) (ix2 r k) = (V m c main_v8 : FVec F S8192x1024 .bf16) (ix2 (row t r) k) := by
  have hi := idx_facts t
  unfold iblk
  rw [View.read_apply]
  show V m c main_v8 _ = V m c main_v8 _
  congr 1
  funext ax
  apply Fin.ext
  match ax with
  | ⟨0, _⟩ => show win0_0.index t (0 : Fin 2) * 256 + 1 * r.val = 256 * t.val + r.val; rw [hi.w0.1]; omega
  | ⟨1, _⟩ => show win0_0.index t (1 : Fin 2) * 1024 + 1 * k.val = k.val; rw [hi.w0.2]; omega

/-- The label block of step t is positions 256·t … of the labels. -/
theorem blk7_at (c : Dev nD) (t : Fin cfg0.N) (u : Fin 1) (r : Fin 256) :
    (iblk m c 7 t : IVec S1x256 32) (ix2 u r) = (V m c main_v13 : IVec S1x8192 32) (ix2 (0 : Fin 1) (row t r)) := by
  have hi := idx_facts t
  have hu : u.val = 0 := by omega
  unfold iblk
  rw [View.read_apply]
  show V m c main_v13 _ = V m c main_v13 _
  congr 1
  funext ax
  apply Fin.ext
  match ax with
  | ⟨0, _⟩ => show win0_7.index t (0 : Fin 2) * 1 + 1 * u.val = 0; rw [hi.w7.1]; omega
  | ⟨1, _⟩ => show win0_7.index t (1 : Fin 2) * 256 + 1 * r.val = 256 * t.val + r.val; rw [hi.w7.2]; omega

/-- Window 1 never moves: its block at any step is the whole array. -/
theorem blk1_at (c : Dev nD) (t : Fin cfg0.N) (p : Fin 1024) (q : Fin 2048) :
    (iblk m c 1 t : FVec F S1024x2048 .bf16) (ix2 p q) = (V m c main_v9 : FVec F S1024x2048 .bf16) (ix2 p q) := by
  have hi := idx_facts t
  unfold iblk
  rw [View.read_apply]
  show V m c main_v9 _ = V m c main_v9 _
  congr 1
  funext ax
  apply Fin.ext
  match ax with
  | ⟨0, _⟩ => show win0_1.index t (0 : Fin 2) * 1024 + 1 * p.val = p.val; rw [hi.w1.1]; omega
  | ⟨1, _⟩ => show win0_1.index t (1 : Fin 2) * 2048 + 1 * q.val = q.val; rw [hi.w1.2]; omega

/-- Window 2 never moves: its block at any step is the whole array. -/
theorem blk2_at (c : Dev nD) (t : Fin cfg0.N) (p : Fin 1) (q : Fin 2048) :
    (iblk m c 2 t : FVec F S1x2048 .f32) (ix2 p q) = (V m c main_v11 : FVec F S1x2048 .f32) (ix2 p q) := by
  have hi := idx_facts t
  unfold iblk
  rw [View.read_apply]
  show V m c main_v11 _ = V m c main_v11 _
  congr 1
  funext ax
  apply Fin.ext
  match ax with
  | ⟨0, _⟩ => show win0_2.index t (0 : Fin 2) * 1 + 1 * p.val = p.val; rw [hi.w2.1]; omega
  | ⟨1, _⟩ => show win0_2.index t (1 : Fin 2) * 2048 + 1 * q.val = q.val; rw [hi.w2.2]; omega

/-- Window 3 never moves: its block at any step is the whole array. -/
theorem blk3_at (c : Dev nD) (t : Fin cfg0.N) (p : Fin 2048) (q : Fin 1024) :
    (iblk m c 3 t : FVec F S2048x1024 .bf16) (ix2 p q) = (V m c main_v10 : FVec F S2048x1024 .bf16) (ix2 p q) := by
  have hi := idx_facts t
  unfold iblk
  rw [View.read_apply]
  show V m c main_v10 _ = V m c main_v10 _
  congr 1
  funext ax
  apply Fin.ext
  match ax with
  | ⟨0, _⟩ => show win0_3.index t (0 : Fin 2) * 2048 + 1 * p.val = p.val; rw [hi.w3.1]; omega
  | ⟨1, _⟩ => show win0_3.index t (1 : Fin 2) * 1024 + 1 * q.val = q.val; rw [hi.w3.2]; omega

/-- Window 4 never moves: its block at any step is the whole array. -/
theorem blk4_at (c : Dev nD) (t : Fin cfg0.N) (p : Fin 1) (q : Fin 1024) :
    (iblk m c 4 t : FVec F S1x1024 .f32) (ix2 p q) = (V m c main_v12 : FVec F S1x1024 .f32) (ix2 p q) := by
  have hi := idx_facts t
  unfold iblk
  rw [View.read_apply]
  show V m c main_v12 _ = V m c main_v12 _
  congr 1
  funext ax
  apply Fin.ext
  match ax with
  | ⟨0, _⟩ => show win0_4.index t (0 : Fin 2) * 1 + 1 * p.val = p.val; rw [hi.w4.1]; omega
  | ⟨1, _⟩ => show win0_4.index t (1 : Fin 2) * 1024 + 1 * q.val = q.val; rw [hi.w4.2]; omega

/-- Window 5 never moves: its block at any step is the whole array. -/
theorem blk5_at (c : Dev nD) (t : Fin cfg0.N) (p : Fin 1024) (q : Fin 1024) :
    (iblk m c 5 t : FVec F S1024x1024 .bf16) (ix2 p q) = (V m c main_v4 : FVec F S1024x1024 .bf16) (ix2 p q) := by
  have hi := idx_facts t
  unfold iblk
  rw [View.read_apply]
  show V m c main_v4 _ = V m c main_v4 _
  congr 1
  funext ax
  apply Fin.ext
  match ax with
  | ⟨0, _⟩ => show win0_5.index t (0 : Fin 2) * 1024 + 1 * p.val = p.val; rw [hi.w5.1]; omega
  | ⟨1, _⟩ => show win0_5.index t (1 : Fin 2) * 1024 + 1 * q.val = q.val; rw [hi.w5.2]; omega

/-- Window 6 never moves: its block at any step is the whole array. -/
theorem blk6_at (c : Dev nD) (t : Fin cfg0.N) (p : Fin 1) (q : Fin 1024) :
    (iblk m c 6 t : FVec F S1x1024 .f32) (ix2 p q) = (V m c main_v7 : FVec F S1x1024 .f32) (ix2 p q) := by
  have hi := idx_facts t
  unfold iblk
  rw [View.read_apply]
  show V m c main_v7 _ = V m c main_v7 _
  congr 1
  funext ax
  apply Fin.ext
  match ax with
  | ⟨0, _⟩ => show win0_6.index t (0 : Fin 2) * 1 + 1 * p.val = p.val; rw [hi.w6.1]; omega
  | ⟨1, _⟩ => show win0_6.index t (1 : Fin 2) * 1024 + 1 * q.val = q.val; rw [hi.w6.2]; omega

/-- Window 8 never moves: its block at any step is the whole array. -/
theorem blk8_at (c : Dev nD) (t : Fin cfg0.N) (p : Fin 1024) (q : Fin 256) :
    (iblk m c 8 t : IVec S1024x256 32) (ix2 p q) = (V m c main_v16 : IVec S1024x256 32) (ix2 p q) := by
  have hi := idx_facts t
  unfold iblk
  rw [View.read_apply]
  show V m c main_v16 _ = V m c main_v16 _
  congr 1
  funext ax
  apply Fin.ext
  match ax with
  | ⟨0, _⟩ => show win0_8.index t (0 : Fin 2) * 1024 + 1 * p.val = p.val; rw [hi.w8.1]; omega
  | ⟨1, _⟩ => show win0_8.index t (1 : Fin 2) * 256 + 1 * q.val = q.val; rw [hi.w8.2]; omega

end Cert.KernelIdeal.Blocks
end
-- ==== Proof.HostPrefix.lean ====
/-
  What the kernel's operand arrays hold when the grid starts, as functions of the program's arguments.

  The lines before the launch only re-lay the arguments: the batch and the two weight matrices change float format
  (the identity over the extended reals), the biases and the labels gain a leading unit axis, the prototypes are
  written into the first 1000 rows of a 1024-row table and that table is transposed (for the cross term) and
  squared-and-summed along its rows (for the prototype norms), and the row-number table is an iota broadcast along
  256 lanes.
-/
import proofs.«134875_j59897613910017_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Prefix

open Cert.KernelIdeal Cert.KernelIdeal.Gen Idealize.ShloMosaic.ValueIdx

section AnyF
variable {F : FTy → Type} [FloatOps F]
variable (m : (ℓ : Loc nD τ sig) → Buf (Elt F) ℓ)

/-- The prototypes written into rows 0 … 999 of a 1024-row table of zeros. -/
abbrev padded (c : Dev nD) : FVec F S1024x1024 .f32 :=
  Host.scatter scatter_S1024x1024_S1_S1000x1024_01_n_0_0 (fun _ b => b)
    (broadcastInDim S1024x1024 ![] bcast_S_S1024x1024 (constant S_ .f32 0x00000000#32))
    (broadcastInDim S1 ![] bcast_S_S1 (constantI S_ 32 0#32)) (m ((c : Thread nD τ).loc main_arg5))

theorem V_v8 (c : Dev nD) : V m c main_v8 = truncf .bf16 (m ((c : Thread nD τ).loc main_arg0)) bitsLt_bf16_f32 := by
  show StableHlo.after hostOps0 (fun b => m (c, b)) (Proc.devRef .tc main_v8) = _
  after_results <;> rfl
theorem V_v9 (c : Dev nD) : V m c main_v9 = truncf .bf16 (m ((c : Thread nD τ).loc main_arg1)) bitsLt_bf16_f32 := by
  show StableHlo.after hostOps0 (fun b => m (c, b)) (Proc.devRef .tc main_v9) = _
  after_results <;> rfl
theorem V_v10 (c : Dev nD) : V m c main_v10 = truncf .bf16 (m ((c : Thread nD τ).loc main_arg3)) bitsLt_bf16_f32 := by
  show StableHlo.after hostOps0 (fun b => m (c, b)) (Proc.devRef .tc main_v10) = _
  after_results <;> rfl
theorem V_v11 (c : Dev nD) : V m c main_v11 = shapeCast S1x2048 (m ((c : Thread nD τ).loc main_arg2)) shapeCasts_S2048_S1x2048 := by
  show StableHlo.after hostOps0 (fun b => m (c, b)) (Proc.devRef .tc main_v11) = _
  after_results <;> rfl
theorem V_v12 (c : Dev nD) : V m c main_v12 = shapeCast S1x1024 (m ((c : Thread nD τ).loc main_arg4)) shapeCasts_S1024_S1x1024 := by
  show StableHlo.after hostOps0 (fun b => m (c, b)) (Proc.devRef .tc main_v12) = _
  after_results <;> rfl
theorem V_v13 (c : Dev nD) : V m c main_v13 = shapeCast S1x8192 (m ((c : Thread nD τ).loc main_arg6)) shapeCasts_S8192_S1x8192 := by
  show StableHlo.after hostOps0 (fun b => m (c, b)) (Proc.devRef .tc main_v13) = _
  after_results <;> rfl
theorem V_v16 (c : Dev nD) : V m c main_v16 = broadcastInDim S1024x256 ![0, 1] bcast_S1024x1_S1024x256_0_1
      (broadcastInDim S1024x1 ![0] bcast_S1024_S1024x1_0 (iotaInDim S1024 32 0)) := by
  show StableHlo.after hostOps0 (fun b => m (c, b)) (Proc.devRef .tc main_v16) = _
  after_results <;> rfl
theorem V_v4 (c : Dev nD) : V m c main_v4 = truncf .bf16 (transpose S1024x1024 [1, 0] (padded m c) transposes_S1024x1024_S1024x1024_1_0) bitsLt_bf16_f32 := by
  show StableHlo.after hostOps0 (fun b => m (c, b)) (Proc.devRef .tc main_v4) = _
  after_results <;> rfl
theorem V_v7 (c : Dev nD) : V m c main_v7 = broadcastInDim S1x1024 ![1] bcast_S1024_S1x1024_1
      (Host.reduceAdd (mulf (padded m c) (padded m c)) (constant S_ .f32 0x00000000#32) reducesTo_S1024x1024_S1024_d1 h_S_) := by
  show StableHlo.after hostOps0 (fun b => m (c, b)) (Proc.devRef .tc main_v7) = _
  after_results <;> rfl

end AnyF

end Cert.KernelIdeal.Prefix
end
-- ==== Proof.LibScatterSet.lean ====
/-
  A host scatter whose body returns the update (an `x.at[…].set(u)`), read at an index an update lands on.

  The scatter is a left fold over the update indices in row-major order, each step replacing the element at the
  update's result index. When every update index `j` lands inside the operand, at `emb j`, and `emb` is injective,
  no later step touches `emb j` again, so the result there is `upd j`. The fold is never evaluated: the statement is
  proved for an arbitrary list of update positions by induction on the list.
-/
import Idealize.ShloMosaic.PureOps.ShapeOps

namespace Cert.LibScatterSet

open Idealize.ShloMosaic

variable {α : Type} {s si u : Shape} {w : Nat}

/-- The scatter's fold over ANY list of update positions, read at `emb j`: the update `upd j` once `j`'s position is
    in the list, the starting contents before. -/
theorem foldl_set_apply (d : ScatterDims s si u) (idx : IVec si w) (upd : u.Idx → α) (emb : u.Idx → s.Idx)
    (hemb : Function.Injective emb) (hres : ∀ j, d.resultIdx? j idx = some (emb j)) (j : u.Idx) :
    ∀ (l : List (Fin u.numel)) (r0 : s.Idx → α),
      (l.foldl (fun r n =>
        match d.resultIdx? (u.rowMajor.symm n) idx with
        | some i => fun i' => if i' = i then (fun (_ : α) (b : α) => b) (r i) (upd (u.rowMajor.symm n)) else r i'
        | none => r) r0) (emb j) = if u.rowMajor j ∈ l then upd j else r0 (emb j) := by
  intro l
  induction l with
  | nil => intro r0; simp
  | cons a l ih =>
    intro r0
    rw [List.foldl_cons, ih]
    by_cases hl : u.rowMajor j ∈ l
    · rw [if_pos hl, if_pos (List.mem_cons_of_mem _ hl)]
    · rw [if_neg hl]
      simp only [hres]
      by_cases ha : a = u.rowMajor j
      · subst ha
        rw [if_pos List.mem_cons_self, Equiv.symm_apply_apply, if_pos rfl]
      · have hne : emb j ≠ emb (u.rowMajor.symm a) := fun h => ha (by
          have := hemb h
          rw [this, Equiv.apply_symm_apply])
        rw [if_neg hne, if_neg]
        intro hm
        rcases List.mem_cons.mp hm with h | h
        · exact ha h.symm
        · exact hl h

/-- A scatter that replaces (its body returns the update), read where update `j` lands: the update. -/
theorem scatter_set_hit (d : ScatterDims s si u) (x : s.Idx → α) (idx : IVec si w) (upd : u.Idx → α)
    (emb : u.Idx → s.Idx) (hemb : Function.Injective emb) (hres : ∀ j, d.resultIdx? j idx = some (emb j)) (j : u.Idx) :
    Host.scatter d (fun _ b => b) x idx upd (emb j) = upd j := by
  have h := foldl_set_apply d idx upd emb hemb hres j (List.finRange u.numel) x
  rw [if_pos (List.mem_finRange _)] at h
  exact h

end Cert.LibScatterSet
-- ==== Proof.HostRead.lean ====
/-
  The kernel's operand arrays, as the grid finds them, read at coordinates over the extended reals: each is an
  argument array at the same coordinates, except the prototype table, whose rows below 1000 are the prototypes
  (transposed for the cross term, squared and summed along a row for the norms), and the row-number table, whose
  entry in row k is k.
-/
import proofs.«134875_j59897613910017_2_alg».proof.Proof.HostPrefix
import proofs.«134875_j59897613910017_2_alg».proof.Proof.LibScatterSet
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Prefix

open Cert.KernelIdeal Cert.KernelIdeal.Gen Idealize.ShloMosaic.ValueIdx

variable (m : (ℓ : Loc nD τ sig) → Buf (Elt Ideal) ℓ)

theorem x_at (c : Dev nD) (b : Fin 8192) (k : Fin 1024) :
    (V m c main_v8 : FVec Ideal S8192x1024 .bf16) (ix2 b k) = (m ((c : Thread nD τ).loc main_arg0) : FVec Ideal S8192x1024 .f32) (ix2 b k) := by
  rw [V_v8]; rfl
theorem w1_at (c : Dev nD) (k : Fin 1024) (j : Fin 2048) :
    (V m c main_v9 : FVec Ideal S1024x2048 .bf16) (ix2 k j) = (m ((c : Thread nD τ).loc main_arg1) : FVec Ideal S1024x2048 .f32) (ix2 k j) := by
  rw [V_v9]; rfl
theorem w2_at (c : Dev nD) (j : Fin 2048) (e : Fin 1024) :
    (V m c main_v10 : FVec Ideal S2048x1024 .bf16) (ix2 j e) = (m ((c : Thread nD τ).loc main_arg3) : FVec Ideal S2048x1024 .f32) (ix2 j e) := by
  rw [V_v10]; rfl
theorem b1_at (c : Dev nD) (j : Fin 2048) :
    (V m c main_v11 : FVec Ideal S1x2048 .f32) (ix2 (0 : Fin 1) j) = (m ((c : Thread nD τ).loc main_arg2) : FVec Ideal S2048 .f32) (ix1 j) := by
  rw [V_v11]; exact shapeCast_a_1a_apply _ _ 0 j
theorem b2_at (c : Dev nD) (e : Fin 1024) :
    (V m c main_v12 : FVec Ideal S1x1024 .f32) (ix2 (0 : Fin 1) e) = (m ((c : Thread nD τ).loc main_arg4) : FVec Ideal S1024 .f32) (ix1 e) := by
  rw [V_v12]; exact shapeCast_a_1a_apply _ _ 0 e
theorem label_at (c : Dev nD) (b : Fin 8192) :
    (V m c main_v13 : IVec S1x8192 32) (ix2 (0 : Fin 1) b) = (m ((c : Thread nD τ).loc main_arg6) : IVec S8192 32) (ix1 b) := by
  rw [V_v13]; exact shapeCast_a_1a_apply _ _ 0 b
theorem iota_at (c : Dev nD) (k : Fin 1024) (r : Fin 256) :
    (V m c main_v16 : IVec S1024x256 32) (ix2 k r) = BitVec.ofNat 32 k.val := by
  rw [V_v16]
  rw [broadcastInDim_apply _ bcast_S1024x1_S1024x256_0_1 _ (ix2 k r) (ix2 k (0 : Fin 1)) (fun a => match a with
    | ⟨0, _⟩ => by show k.val = if (1024 : Nat) = 1 then 0 else k.val; rw [if_neg (by decide)]
    | ⟨1, _⟩ => by show 0 = if (1 : Nat) = 1 then 0 else r.val; rw [if_pos rfl])]
  rw [broadcastInDim_apply _ bcast_S1024_S1024x1_0 _ (ix2 k (0 : Fin 1)) (ix1 k) (fun a => match a with
    | ⟨0, _⟩ => by show k.val = if (1024 : Nat) = 1 then 0 else k.val; rw [if_neg (by decide)])]
  rfl

end Cert.KernelIdeal.Prefix
end
-- ==== Proof.PaddedRows.lean ====
/-
  The prototypes inside the padded table: row k of the table, for k below 1000, is row k of the prototypes.

  The table is a scatter of the prototypes into zeros at the one start index 0 with a replacing body: update
  (k, e) lands at (0 + k, e), inside the table, and distinct updates land at distinct places.
-/
import proofs.«134875_j59897613910017_2_alg».proof.Proof.HostPrefix
import proofs.«134875_j59897613910017_2_alg».proof.Proof.LibScatterSet
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Prefix

open Cert.KernelIdeal Cert.KernelIdeal.Gen Idealize.ShloMosaic.ValueIdx

/-- Where update row `k` of the prototypes lands in the 1024-row table: row `k`. -/
def rowEmb (j : S1000x1024.Idx) : S1024x1024.Idx := fun a => match a with
  | ⟨0, _⟩ => ⟨(j 0).val, by have h : (j 0).val < 1000 := (j 0).isLt; show _ < 1024; omega⟩
  | ⟨1, _⟩ => ⟨(j 1).val, (j 1).isLt⟩

theorem rowEmb_injective : Function.Injective rowEmb := fun j j' h => by
  funext a
  apply Fin.ext
  match a with
  | ⟨0, _⟩ => have h0 := congrArg Fin.val (congrFun h 0); exact h0
  | ⟨1, _⟩ => have h1 := congrArg Fin.val (congrFun h 1); exact h1

theorem rowEmb_ix2 (k : Fin 1000) (e : Fin 1024) :
    rowEmb (ix2 k e) = ix2 (⟨k.val, by have := k.isLt; omega⟩ : Fin 1024) e := by
  funext a
  match a with
  | ⟨0, _⟩ => rfl
  | ⟨1, _⟩ => rfl

/-- With the one start index zero, update index `j` lands at row `j 0`, column `j 1`: inside the table. -/
theorem scatter_lands (idx : IVec S1 32) (hidx : ∀ k, idx k = 0#32) (j : S1000x1024.Idx) :
    scatter_S1024x1024_S1_S1000x1024_01_n_0_0.resultIdx? j idx = some (rowEmb j) := by
  have hs : ∀ a, scatter_S1024x1024_S1_S1000x1024_01_n_0_0.start j idx a = 0 := by
    intro a
    unfold ScatterDims.start
    split
    · rw [hidx]; rfl
    · rfl
  have hw : ∀ a, scatter_S1024x1024_S1_S1000x1024_01_n_0_0.window j a = (j a).val := by
    intro a
    unfold ScatterDims.window
    have hm : a ∈ scatter_S1024x1024_S1_S1000x1024_01_n_0_0.sKept := by
      show a ∈ S1024x1024.kept []
      revert a; decide
    rw [dif_pos hm]
    fin_cases a <;> rfl
  unfold ScatterDims.resultIdx?
  have h0 : (j 0).val < 1000 := (j 0).isLt
  have h1 : (j 1).val < 1024 := (j 1).isLt
  rw [dif_pos (by
    intro a
    rw [hs, hw]
    match a with
    | ⟨0, _⟩ => exact ⟨by omega, by show (0 : Int) + ((j 0).val : Int) < ((1024 : Nat) : Int); omega⟩
    | ⟨1, _⟩ => exact ⟨by omega, by show (0 : Int) + ((j 1).val : Int) < ((1024 : Nat) : Int); omega⟩)]
  congr 1
  funext a
  apply Fin.ext
  show (scatter_S1024x1024_S1_S1000x1024_01_n_0_0.start j idx a + scatter_S1024x1024_S1_S1000x1024_01_n_0_0.window j a).toNat = (rowEmb j a).val
  rw [hs, hw]
  match a with
  | ⟨0, _⟩ => show ((0 : Int) + ((j 0).val : Int)).toNat = (j 0).val; omega
  | ⟨1, _⟩ => show ((0 : Int) + ((j 1).val : Int)).toNat = (j 1).val; omega

/-- A replacing scatter of a [1000, 1024] update at start index 0 into any [1024, 1024] operand, read in a row below
    1000: the update's row. -/
theorem scatter_rows {α : Type} (x0 : S1024x1024.Idx → α) (idx : IVec S1 32) (hidx : ∀ k, idx k = 0#32) (upd : S1000x1024.Idx → α)
    (k : Fin 1000) (e : Fin 1024) :
    Host.scatter scatter_S1024x1024_S1_S1000x1024_01_n_0_0 (fun _ b => b) x0 idx upd (ix2 (⟨k.val, by have := k.isLt; omega⟩ : Fin 1024) e)
      = upd (ix2 k e) := by
  rw [← rowEmb_ix2]
  exact Cert.LibScatterSet.scatter_set_hit scatter_S1024x1024_S1_S1000x1024_01_n_0_0 x0 idx upd rowEmb rowEmb_injective
    (scatter_lands idx hidx) (ix2 k e)

variable (m : (ℓ : Loc nD τ sig) → Buf (Elt Ideal) ℓ)

/-- Rows 0 … 999 of the padded table are the prototypes. -/
theorem padded_at (c : Dev nD) (k : Fin 1000) (e : Fin 1024) :
    (padded m c : FVec Ideal S1024x1024 .f32) (ix2 (⟨k.val, by have := k.isLt; omega⟩ : Fin 1024) e)
      = (m ((c : Thread nD τ).loc main_arg5) : FVec Ideal S1000x1024 .f32) (ix2 k e) :=
  scatter_rows _ _ (fun _ => rfl) _ k e

end Cert.KernelIdeal.Prefix
end
-- ==== Proof.TableRead.lean ====
/-
  The two operands derived from the padded prototype table, read at coordinates: its transpose (for the cross term)
  and the sums of squares of its rows (for the prototype norms), whatever the table holds.
-/
import proofs.«134875_j59897613910017_2_alg».proof.Proof.HostPrefix
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Prefix

open Cert.KernelIdeal Cert.KernelIdeal.Gen Idealize.ShloMosaic.ValueIdx

/-- A [1024, 1024] table transposed and changed in format, at (e, q): the table at (q, e). -/
theorem transposed_read (y0 : FVec Ideal S1024x1024 .f32) (e q : Fin 1024) :
    (truncf .bf16 (transpose S1024x1024 [1, 0] y0 transposes_S1024x1024_S1024x1024_1_0) bitsLt_bf16_f32 : FVec Ideal S1024x1024 .bf16) (ix2 e q)
      = y0 (ix2 q e) := by
  rw [truncf_apply]
  exact transpose_ix2_apply y0 transposes_S1024x1024_S1024x1024_1_0 e q

/-- A host sum along the rows of a [1024, 1024] array from the zero word, at row q: zero plus the sum along the row. -/
theorem rowsum_host (z : FVec Ideal S1024x1024 .f32) (q : Fin 1024) :
    Host.reduceAdd z (constant (F := Ideal) S_ .f32 0x00000000#32) reducesTo_S1024x1024_S1024_d1 h_S_ (ix1 q)
      = Ideal.ofBits .f32 0x00000000#32 + ∑ e : Fin 1024, z (ix2 q e) := by
  simp only [Host.reduceAdd, Ideal.hostReduceAdd_def]
  rw [Ideal.hostReduceAdd_single reducesTo_S1024x1024_S1024_d1 (by decide)]
  rw [constant_apply]
  refine congrArg (Ideal.ofBits .f32 0x00000000#32 + ·) (Finset.sum_congr rfl fun k _ => ?_)
  exact congrArg z (funext fun a => Fin.ext (by match a with | ⟨0, _⟩ => rfl | ⟨1, _⟩ => rfl))

/-- The row norms of a [1024, 1024] table, laid out as one row, at column q: zero plus the sum of the squares of the
    table's row q. -/
theorem norms_read (y0 : FVec Ideal S1024x1024 .f32) (q : Fin 1024) :
    (broadcastInDim S1x1024 ![1] bcast_S1024_S1x1024_1
        (Host.reduceAdd (mulf y0 y0) (constant (F := Ideal) S_ .f32 0x00000000#32) reducesTo_S1024x1024_S1024_d1 h_S_) : FVec Ideal S1x1024 .f32)
        (ix2 (0 : Fin 1) q)
      = Ideal.ofBits .f32 0x00000000#32 + ∑ e : Fin 1024, y0 (ix2 q e) * y0 (ix2 q e) := by
  rw [broadcastInDim_apply _ bcast_S1024_S1x1024_1 _ (ix2 (0 : Fin 1) q) (ix1 q) (fun a => match a with
    | ⟨0, _⟩ => by show q.val = if (1024 : Nat) = 1 then 0 else q.val; rw [if_neg (by decide)])]
  rw [rowsum_host]
  refine congrArg (Ideal.ofBits .f32 0x00000000#32 + ·) (Finset.sum_congr rfl fun e _ => ?_)
  exact mulf_apply y0 y0 (ix2 q e)

variable (m : (ℓ : Loc nD τ sig) → Buf (Elt Ideal) ℓ)

/-- The transposed table at (e, q) is the padded table at (q, e). -/
theorem protoT_at (c : Dev nD) (e : Fin 1024) (q : Fin 1024) :
    (V m c main_v4 : FVec Ideal S1024x1024 .bf16) (ix2 e q) = (padded m c : FVec Ideal S1024x1024 .f32) (ix2 q e) :=
  (congrFun (V_v4 m c) (ix2 e q)).trans (transposed_read (padded m c) e q)

/-- The prototype norms at column q: zero plus the sum of the squares of row q of the padded table. -/
theorem p2_at (c : Dev nD) (q : Fin 1024) :
    (V m c main_v7 : FVec Ideal S1x1024 .f32) (ix2 (0 : Fin 1) q)
      = Ideal.ofBits .f32 0x00000000#32 + ∑ e : Fin 1024, (padded m c : FVec Ideal S1024x1024 .f32) (ix2 q e) * (padded m c : FVec Ideal S1024x1024 .f32) (ix2 q e) :=
  (congrFun (V_v7 m c) (ix2 (0 : Fin 1) q)).trans (norms_read (padded m c) q)

end Cert.KernelIdeal.Prefix
end
-- ==== Proof.Inputs.lean ====
/-
  The input blocks of a grid step as functions of the program's arguments, element by element.

  Lane r of step t is global row 256·t + r of the batch and of the labels; the weights and biases are read whole; the
  row-number table's row k is k; the two prototype operands are the transpose and the row norms of one table whose
  rows below 1000 are the prototypes.
-/
import proofs.«134875_j59897613910017_2_alg».proof.Proof.Blocks
import proofs.«134875_j59897613910017_2_alg».proof.Proof.HostRead
import proofs.«134875_j59897613910017_2_alg».proof.Proof.PaddedRows
import proofs.«134875_j59897613910017_2_alg».proof.Proof.TableRead

set_option maxRecDepth 16384

noncomputable section

open Idealize.ShloMosaic Idealize.ShloMosaic.TcCoe Idealize.SL.Sem
open Idealize.ShloMosaic.Pipeline (Dat)

namespace Cert.KernelIdeal.Inputs

open Cert.KernelIdeal Cert.KernelIdeal.Gen Idealize.ShloMosaic.ValueIdx

variable (m : (ℓ : Loc nD τ sig) → Buf (Elt Ideal) ℓ)

/-- The arguments, as arrays over the extended reals. -/
abbrev aX (c : Dev nD) : FVec Ideal S8192x1024 .f32 := m ((c : Thread nD τ).loc main_arg0)
abbrev aW1 (c : Dev nD) : FVec Ideal S1024x2048 .f32 := m ((c : Thread nD τ).loc main_arg1)
abbrev aB1 (c : Dev nD) : FVec Ideal S2048 .f32 := m ((c : Thread nD τ).loc main_arg2)
abbrev aW2 (c : Dev nD) : FVec Ideal S2048x1024 .f32 := m ((c : Thread nD τ).loc main_arg3)
abbrev aB2 (c : Dev nD) : FVec Ideal S1024 .f32 := m ((c : Thread nD τ).loc main_arg4)
abbrev aP (c : Dev nD) : FVec Ideal S1000x1024 .f32 := m ((c : Thread nD τ).loc main_arg5)
abbrev aL (c : Dev nD) : IVec S8192 32 := m ((c : Thread nD τ).loc main_arg6)

/-- The 1024-row prototype table the kernel's two prototype operands are made from. -/
def table (c : Dev nD) : FVec Ideal S1024x1024 .f32 := Prefix.padded m c

theorem in0 (c : Dev nD) (t : Fin cfg0.N) (r : Fin 256) (k : Fin 1024) :
    (iblk m c 0 t : FVec Ideal S256x1024 .bf16) (ix2 r k) = aX m c (ix2 (Blocks.row t r) k) :=
  (Blocks.blk0_at m c t r k).trans (Prefix.x_at m c (Blocks.row t r) k)

theorem in1 (c : Dev nD) (t : Fin cfg0.N) (k : Fin 1024) (j : Fin 2048) :
    (iblk m c 1 t : FVec Ideal S1024x2048 .bf16) (ix2 k j) = aW1 m c (ix2 k j) :=
  (Blocks.blk1_at m c t k j).trans (Prefix.w1_at m c k j)

theorem in2 (c : Dev nD) (t : Fin cfg0.N) (j : Fin 2048) :
    (iblk m c 2 t : FVec Ideal S1x2048 .f32) (ix2 (0 : Fin 1) j) = aB1 m c (ix1 j) :=
  (Blocks.blk2_at m c t 0 j).trans (Prefix.b1_at m c j)

theorem in3 (c : Dev nD) (t : Fin cfg0.N) (j : Fin 2048) (e : Fin 1024) :
    (iblk m c 3 t : FVec Ideal S2048x1024 .bf16) (ix2 j e) = aW2 m c (ix2 j e) :=
  (Blocks.blk3_at m c t j e).trans (Prefix.w2_at m c j e)

theorem in4 (c : Dev nD) (t : Fin cfg0.N) (e : Fin 1024) :
    (iblk m c 4 t : FVec Ideal S1x1024 .f32) (ix2 (0 : Fin 1) e) = aB2 m c (ix1 e) :=
  (Blocks.blk4_at m c t 0 e).trans (Prefix.b2_at m c e)

theorem in5 (c : Dev nD) (t : Fin cfg0.N) (e : Fin 1024) (q : Fin 1024) :
    (iblk m c 5 t : FVec Ideal S1024x1024 .bf16) (ix2 e q) = table m c (ix2 q e) :=
  (Blocks.blk5_at m c t e q).trans (Prefix.protoT_at m c e q)

theorem in6 (c : Dev nD) (t : Fin cfg0.N) (q : Fin 1024) :
    (iblk m c 6 t : FVec Ideal S1x1024 .f32) (ix2 (0 : Fin 1) q)
      = Ideal.ofBits .f32 0x00000000#32 + ∑ e : Fin 1024, table m c (ix2 q e) * table m c (ix2 q e) :=
  (Blocks.blk6_at m c t 0 q).trans (Prefix.p2_at m c q)

theorem in7 (c : Dev nD) (t : Fin cfg0.N) (r : Fin 256) :
    (iblk m c 7 t : IVec S1x256 32) (ix2 (0 : Fin 1) r) = aL m c (ix1 (Blocks.row t r)) :=
  (Blocks.blk7_at m c t 0 r).trans (Prefix.label_at m c (Blocks.row t r))

theorem in8 (c : Dev nD) (t : Fin cfg0.N) (k : Fin 1024) (r : Fin 256) :
    (iblk m c 8 t : IVec S1024x256 32) (ix2 k r) = BitVec.ofNat 32 k.val :=
  (Blocks.blk8_at m c t k r).trans (Prefix.iota_at m c k r)

/-- Rows below 1000 of the table are the prototypes. -/
theorem table_at (c : Dev nD) (k : Fin 1000) (e : Fin 1024) :
    table m c (ix2 (⟨k.val, by have := k.isLt; omega⟩ : Fin 1024) e) = aP m c (ix2 k e) :=
  Prefix.padded_at m c k e

attribute [irreducible] table

end Cert.KernelIdeal.Inputs
end
-- ==== Proof.Spec.lean ====
/-
  The three results as functions of the arguments, element by element, over the extended reals.

    hidden   h[b, j]   = max(Σₖ x[b, k]·W1[k, j] + b1[j], 0)
    encoding enc[b, e] = Σⱼ h[b, j]·W2[j, e] + b2[e]
    score    s[b, k]   = −max(((0 + Σₑ enc[b, e]²) + (0 + Σₑ p[k, e]²)) − 2·Σₑ enc[b, e]·p[k, e], 0)
    update   u[k, e]   = Σ_b [label b = k]·enc[b, e]
  and the one law between the two programs' ways of writing the score: `0 − y = −y` and `0 + y = y`.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

section Encoder
variable (X : FVec Ideal ⟨2, ![8192, 1024]⟩ .f32) (W1 : FVec Ideal ⟨2, ![1024, 2048]⟩ .f32) (B1 : FVec Ideal ⟨1, ![2048]⟩ .f32)
  (W2 : FVec Ideal ⟨2, ![2048, 1024]⟩ .f32) (B2 : FVec Ideal ⟨1, ![1024]⟩ .f32)

/-- The hidden layer after the rectifier. -/
def hid (b : Fin 8192) (j : Fin 2048) : EReal :=
  max ((∑ k : Fin 1024, X (ix2 b k) * W1 (ix2 k j)) + B1 (ix1 j)) (Ideal.ofBits .f32 0x00000000#32)

/-- The encoding. -/
def enc (b : Fin 8192) (e : Fin 1024) : EReal :=
  (∑ j : Fin 2048, hid X W1 B1 b j * W2 (ix2 j e)) + B2 (ix1 e)
end Encoder

/-- The score of an encoded row `E` against a prototype row `Pr`: the negated, clamped squared distance. -/
def score (E Pr : Fin 1024 → EReal) : EReal :=
  -(max (((Ideal.ofBits .f32 0x00000000#32 + ∑ e : Fin 1024, E e * E e) + (Ideal.ofBits .f32 0x00000000#32 + ∑ e : Fin 1024, Pr e * Pr e))
          - Ideal.ofBits .f32 0x40000000#32 * ∑ e : Fin 1024, E e * Pr e)
        (Ideal.ofBits .f32 0x00000000#32))

/-- The same score as a kernel step writes it: the row's squared norm without a leading zero, the negation as a
    subtraction from zero. -/
theorem score_eq (E Pr : Fin 1024 → EReal) :
    Ideal.ofBits .f32 0x00000000#32
        - max (((∑ e : Fin 1024, E e * E e) + (Ideal.ofBits .f32 0x00000000#32 + ∑ e : Fin 1024, Pr e * Pr e))
                - Ideal.ofBits .f32 0x40000000#32 * ∑ e : Fin 1024, E e * Pr e)
            (Ideal.ofBits .f32 0x00000000#32)
      = score E Pr := by
  unfold score
  simp only [Ideal.ofBits_zero_f32, zero_sub, zero_add]

/-- One entry of the one-hot table: 1 when label `b` is `k`, else 0. -/
def hot (L : IVec ⟨1, ![8192]⟩ 32) (k : ℕ) (b : Fin 8192) : EReal :=
  FloatOps.uitofp (F := Ideal) .f32 (IntOp.cmpi .eq (L (ix1 b)) (BitVec.ofNat 32 k))

theorem cmpi_eq_comm {w : ℕ} (x y : BitVec w) : IntOp.cmpi .eq x y = IntOp.cmpi .eq y x := by
  show BitVec.ofBool (x == y) = BitVec.ofBool (y == x)
  rw [BEq.comm]

/-- The kernel's entry — the comparison the other way round, widened to 32 bits and read signed — is the same number. -/
theorem hot_eq (L : IVec ⟨1, ![8192]⟩ 32) (k : ℕ) (b : Fin 8192) :
    FloatOps.sitofp (F := Ideal) .f32 ((IntOp.cmpi .eq (BitVec.ofNat 32 k) (L (ix1 b))).setWidth 32) = hot L k b := by
  unfold hot
  rw [cmpi_eq_comm]
  generalize IntOp.cmpi .eq (L (ix1 b)) (BitVec.ofNat 32 k) = v
  have h : (v.setWidth 32).toInt = (v.toNat : Int) := by
    rcases BitVec.eq_zero_or_eq_one v with h | h <;> subst h <;> decide
  show (((v.setWidth 32).toInt : ℝ) : EReal) = ((v.toNat : ℝ) : EReal)
  rw [h, Int.cast_natCast]

end Cert.Spec
end
-- ==== Proof.Arrays.lean ====
/-
  The two arrays the grid writes, after the run, as functions of the arguments.

  Scores: step t writes rows 256·t … 256·t + 255, each entry the score of that global row against one column of the
  padded prototype table; the 32 steps' blocks tile the array. Updates: plane p is written once, after the last step
  of core p's run, and holds the zero word plus the sum over the run's sixteen steps of that step's addend
  Σᵣ [label(256·t + r) = k]·enc[256·t + r, e].
-/
import proofs.«134875_j59897613910017_2_alg».proof.Proof.Gen.KernelIdeal.Frame
import proofs.«134875_j59897613910017_2_alg».proof.Proof.Steps
import proofs.«134875_j59897613910017_2_alg».proof.Proof.BodyValue
import proofs.«134875_j59897613910017_2_alg».proof.Proof.Inputs
import proofs.«134875_j59897613910017_2_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Inputs Idealize.ShloMosaic.ValueIdx

variable (m : (ℓ : Loc nD τ sig) → Buf (Elt Ideal) ℓ)

/-- The encoding of global row b. -/
def encM (c : Dev nD) (b : Fin 8192) (e : Fin 1024) : EReal :=
  Cert.Spec.enc (aX m c) (aW1 m c) (aB1 m c) (aW2 m c) (aB2 m c) b e

set_option maxHeartbeats 4000000 in
/-- The encoding a step computes for its lane r is the encoding of global row 256·t + r. -/
theorem enc_at (c : Dev nD) (t : Fin cfg0.N) (r : Fin 256) (e : Fin 1024) :
    k0_pay4 (F := Ideal) (iblk m c 0 t) (iblk m c 1 t) (iblk m c 2 t) (iblk m c 3 t) (iblk m c 4 t) (ix2 r e) = encM m c (Blocks.row t r) e := by
  refine (Body.enc_blk (iblk m c 0 t) (iblk m c 1 t) (iblk m c 2 t) (iblk m c 3 t) (iblk m c 4 t) r e).trans ?_
  simp only [in0, in1, in2, in3, in4]
  unfold encM Cert.Spec.enc Cert.Spec.hid
  rfl

/-! ## The score array -/

/-- The score of global row b against column q of the padded prototype table, as the steps write it. -/
def score9 (c : Dev nD) (b : Fin 8192) (q : Fin 1024) : EReal :=
  Ideal.ofBits .f32 0x00000000#32
    - max (((∑ e : Fin 1024, encM m c b e * encM m c b e)
              + (Ideal.ofBits .f32 0x00000000#32 + ∑ e : Fin 1024, table m c (ix2 q e) * table m c (ix2 q e)))
            - Ideal.ofBits .f32 0x40000000#32 * ∑ e : Fin 1024, encM m c b e * table m c (ix2 q e))
        (Ideal.ofBits .f32 0x00000000#32)

/-- The score array after the run. -/
def G9 (c : Dev nD) : Buf (Elt Ideal) ((c : Thread nD τ).loc main_v17_0) :=
  fun (i : S8192x1024.Idx) => score9 m c (i 0) (i 1)

theorem G9_at (c : Dev nD) (b : Fin 8192) (q : Fin 1024) : G9 m c (ix2 b q) = score9 m c b q := rfl

theorem score_at (c : Dev nD) (t : Fin cfg0.N) (r : Fin 256) (q : Fin 1024) :
    Steps.scoreAt m c t (ix2 r q) = score9 m c (Blocks.row t r) q := by
  refine (Body.score_blk (iblk m c 0 t) (iblk m c 1 t) (iblk m c 2 t) (iblk m c 3 t) (iblk m c 4 t) (iblk m c 5 t) (iblk m c 6 t) r q).trans ?_
  simp only [enc_at, in5, in6]
  unfold score9
  rfl

/-- What step t writes back to the score array is its block of `G9`. -/
theorem flushed9_eq (c : Dev nD) (t : Fin cfg0.N) :
    (dats m 0 c).flushed 9 t = ((cfg0.win 9).blk t).view.read (Elt Ideal) (G9 m c) := by
  show (cfg0.win 9).cut (grid0.coords t) ((dats m 0 c).after 9 t) = _
  rw [after0_9, Steps.outs_fst]
  funext j
  obtain ⟨r, q, rfl⟩ : ∃ (r : Fin 256) (q : Fin 1024), j = ix2 r q := ⟨j 0, j 1, eq_ix2 j⟩
  show Steps.scoreAt m c t (ix2 r q) = G9 m c (((cfg0.win 9).blk t).view.emb (ix2 r q))
  have hemb : ((cfg0.win 9).blk t).view.emb (ix2 r q) = ix2 (Blocks.row t r) q := by
    have hi := Blocks.idx_facts t
    funext a; apply Fin.ext
    match a with
    | ⟨0, _⟩ => show win0_9.index t (0 : Fin 2) * 256 + 1 * r.val = 256 * t.val + r.val; rw [hi.w9.1]; omega
    | ⟨1, _⟩ => show win0_9.index t (1 : Fin 2) * 1024 + 1 * q.val = q.val; rw [hi.w9.2]; omega
  rw [hemb, G9_at]
  exact score_at m c t r q

/-- An index of the score array is in step t's block iff its row is among the step's 256. -/
theorem mem_blk9 (t : Fin cfg0.N) (i : S8192x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v17_0).slice (win0_9.rect t)).set ↔ _
  rw [View.set_slice_whole, Rect.mem_set_unit]
  exact Iff.rfl

/-- THE SCORE ARRAY after the run: `G9`. The step that covers row b is b / 256. -/
theorem final9 (c : Dev nD) : (dats m 0 c).arrAt 9 cfg0.N = G9 m c :=
  (dats m 0 c).arrAt_eq_of_cover 9 (G9 m c) (fun t _ => flushed9_eq m c t) fun i => by
    have h0 : (i 0).val < 8192 := (i 0).isLt
    have h1 : (i 1).val < 1024 := (i 1).isLt
    have hN : cfg0.N = 32 := N_0
    refine ⟨⟨(i 0).val / 256, by rw [hN]; omega⟩, flush0_9 _, ?_⟩
    rw [mem_blk9]
    have hi := Blocks.idx_facts ⟨(i 0).val / 256, by rw [hN]; omega⟩
    intro a
    match a with
    | ⟨0, _⟩ =>
      show win0_9.index _ (0 : Fin 2) * 256 ≤ (i 0).val ∧ (i 0).val < win0_9.index _ (0 : Fin 2) * 256 + 256
      rw [hi.w9.1]; dsimp only; omega
    | ⟨1, _⟩ =>
      show win0_9.index _ (1 : Fin 2) * 1024 ≤ (i 1).val ∧ (i 1).val < win0_9.index _ (1 : Fin 2) * 1024 + 1024
      rw [hi.w9.2]; omega

/-! ## The update array -/

/-- Term b of the update sum for (k, e), for any natural b (zero past the batch). -/
def term (c : Dev nD) (k e : Fin 1024) (b : ℕ) : EReal :=
  if h : b < 8192 then Cert.Spec.hot (aL m c) k.val ⟨b, h⟩ * encM m c ⟨b, h⟩ e else 0

/-- The addend of step n for (k, e): the terms of its 256 rows. -/
def addend (c : Dev nD) (n : ℕ) (k e : Fin 1024) : EReal := ∑ r : Fin 256, term m c k e (256 * n + r.val)

/-- The one-hot entry a step forms for table row k and lane r is the entry for global position 256·t + r. -/
theorem hot_at (c : Dev nD) (t : Fin cfg0.N) (k : Fin 1024) (r : Fin 256) :
    Body.hot (iblk m c 7 t) (iblk m c 8 t) k r = Cert.Spec.hot (aL m c) k.val (Blocks.row t r) := by
  unfold Body.hot
  rw [in8, in7]
  exact Cert.Spec.hot_eq (aL m c) k.val (Blocks.row t r)

/-- One step: the accumulator it finds plus its addend, at every element. -/
theorem upd_at (c : Dev nD) (t : Fin cfg0.N) (acc : FVec Ideal S1x1024x1024 .f32) (y : S1x1024x1024.Idx) :
    Steps.updAt m c t acc y = acc y + addend m c t.val (y 1) (y 2) := by
  obtain ⟨u, k, e, rfl⟩ : ∃ (u : Fin 1) (k : Fin 1024) (e : Fin 1024), y = ix3 u k e := ⟨y 0, y 1, y 2, eq_ix3 y⟩
  obtain rfl : u = 0 := Subsingleton.elim _ _
  refine (Body.upd_blk (iblk m c 0 t) (iblk m c 1 t) (iblk m c 2 t) (iblk m c 3 t) (iblk m c 4 t) (iblk m c 7 t) (iblk m c 8 t) acc 0 k e).trans ?_
  show acc (ix3 (0 : Fin 1) k e) + _ = acc (ix3 (0 : Fin 1) k e) + ∑ r : Fin 256, term m c k e (256 * t.val + r.val)
  refine congrArg (acc (ix3 (0 : Fin 1) k e) + ·) (Finset.sum_congr rfl fun r _ => ?_)
  rw [hot_at, enc_at]
  unfold term
  rw [dif_pos (show 256 * t.val + r.val < 8192 from (Blocks.row t r).isLt)]
  rfl

/-- After the last step of a run the accumulator is the zero word plus the run's sixteen addends. -/
theorem acc_at (c : Dev nD) (t : Fin cfg0.N) (h15 : t.val % 16 = 15) (y : S1x1024x1024.Idx) :
    (outsAt0 m c t.val t.isLt).2 y
      = Ideal.ofBits .f32 0x00000000#32 + ∑ s ∈ Finset.range 16, addend m c (16 * (t.val / 16) + s) (y 1) (y 2) := by
  have h' : 16 * (t.val / 16) + t.val % 16 < cfg0.N := by rw [Nat.div_add_mod]; exact t.isLt
  rw [Steps.outs_snd m c t.val t.isLt h']
  have key := Pipeline.accAt_add_apply (N := cfg0.N)
    (fun n h => Steps.updAt m c ⟨n, h⟩ (k0_pay3 (F := Ideal))) (fun n h acc => Steps.updAt m c ⟨n, h⟩ acc)
    (fun _ => Ideal.ofBits .f32 0x00000000#32) (fun n (y : S1x1024x1024.Idx) => addend m c n (y 1) (y 2)) (16 * (t.val / 16)) 15
    (fun h i => by rw [upd_at, Body.zero_blk])
    (fun n h acc i _ _ => upd_at m c ⟨n, h⟩ acc i)
    (t.val % 16) (by omega) h' y
  rw [key, h15]

/-- The update array after the run: plane p is the zero word plus the addends of steps 16·p … 16·p + 15. -/
def G10 (c : Dev nD) : Buf (Elt Ideal) ((c : Thread nD τ).loc main_v17_1) :=
  fun (i : S2x1024x1024.Idx) => Ideal.ofBits .f32 0x00000000#32 + ∑ s ∈ Finset.range 16, addend m c (16 * (i 0).val + s) (i 1) (i 2)

theorem G10_at (c : Dev nD) (p : Fin 2) (k e : Fin 1024) :
    G10 m c (ix3 p k e) = Ideal.ofBits .f32 0x00000000#32 + ∑ s ∈ Finset.range 16, addend m c (16 * p.val + s) k e := rfl

/-- What the last step of a run writes back to the update array is its block (a whole plane) of `G10`. -/
theorem flushed10_eq (c : Dev nD) (t : Fin cfg0.N) (hf : (cfg0.win 10).flush t = true) :
    (dats m 0 c).flushed 10 t = ((cfg0.win 10).blk t).view.read (Elt Ideal) (G10 m c) := by
  have h15 : t.val % 16 = 15 := (flush0_10 t).mp hf
  have h32 := Blocks.lt32 t
  show (cfg0.win 10).cut (grid0.coords t) ((dats m 0 c).after 10 t) = _
  rw [after0_10]
  funext j
  obtain ⟨u, k, e, rfl⟩ : ∃ (u : Fin 1) (k : Fin 1024) (e : Fin 1024), j = ix3 u k e := ⟨j 0, j 1, j 2, eq_ix3 j⟩
  show (outsAt0 m c t.val t.isLt).2 (ix3 u k e) = G10 m c (((cfg0.win 10).blk t).view.emb (ix3 u k e))
  have hemb : ((cfg0.win 10).blk t).view.emb (ix3 u k e) = ix3 (⟨t.val / 16, by omega⟩ : Fin 2) k e := by
    have hi := Blocks.idx_facts t
    have hu : u.val = 0 := by omega
    funext a; apply Fin.ext
    match a with
    | ⟨0, _⟩ => show win0_10.index t (0 : Fin 3) * 1 + 1 * u.val = t.val / 16; rw [hi.w10.1]; omega
    | ⟨1, _⟩ => show win0_10.index t (1 : Fin 3) * 1024 + 1 * k.val = k.val; rw [hi.w10.2.1]; omega
    | ⟨2, _⟩ => show win0_10.index t (2 : Fin 3) * 1024 + 1 * e.val = e.val; rw [hi.w10.2.2]; omega
  rw [hemb, acc_at m c t h15, G10_at]

/-- An index of the update array is in step t's block iff its plane is the step's core. -/
theorem mem_blk10 (t : Fin cfg0.N) (i : S2x1024x1024.Idx) :
    i ∈ ((cfg0.win 10).blk t).view.set ↔ ∀ a : Fin 3, win0_10.index t a * S1x1024x1024.size a ≤ (i a).val ∧ (i a).val < win0_10.index t a * S1x1024x1024.size a + S1x1024x1024.size a := by
  show i ∈ ((View.whole main_v17_1).slice (win0_10.rect t)).set ↔ _
  rw [View.set_slice_whole, Rect.mem_set_unit]
  exact Iff.rfl

/-- THE UPDATE ARRAY after the run: `G10`. Plane p is written by step 16·p + 15. -/
theorem final10 (c : Dev nD) : (dats m 0 c).arrAt 10 cfg0.N = G10 m c :=
  (dats m 0 c).arrAt_eq_of_cover 10 (G10 m c) (fun t hf => flushed10_eq m c t hf) fun i => by
    have h0 : (i 0).val < 2 := (i 0).isLt
    have h1 : (i 1).val < 1024 := (i 1).isLt
    have h2 : (i 2).val < 1024 := (i 2).isLt
    have hN : cfg0.N = 32 := N_0
    refine ⟨⟨16 * (i 0).val + 15, by rw [hN]; omega⟩, (flush0_10 _).mpr (by dsimp only; omega), ?_⟩
    rw [mem_blk10]
    have hi := Blocks.idx_facts ⟨16 * (i 0).val + 15, by rw [hN]; omega⟩
    intro a
    match a with
    | ⟨0, _⟩ =>
      show win0_10.index _ (0 : Fin 3) * 1 ≤ (i 0).val ∧ (i 0).val < win0_10.index _ (0 : Fin 3) * 1 + 1
      rw [hi.w10.1]; dsimp only; omega
    | ⟨1, _⟩ =>
      show win0_10.index _ (1 : Fin 3) * 1024 ≤ (i 1).val ∧ (i 1).val < win0_10.index _ (1 : Fin 3) * 1024 + 1024
      rw [hi.w10.2.1]; omega
    | ⟨2, _⟩ =>
      show win0_10.index _ (2 : Fin 3) * 1024 ≤ (i 2).val ∧ (i 2).val < win0_10.index _ (2 : Fin 3) * 1024 + 1024
      rw [hi.w10.2.2]; omega

end Cert.KernelIdeal.Arrays
end
-- ==== Proof.Tail.lean ====
/-
  The three results from the two arrays the grid wrote: the host lines after the launch.

  The scores are the first 1000 columns of the score array; the updates are the first 1000 rows of the sum of the
  update array's two planes (a host sum: its initial zero plus the planes); the counts are the column sums of the
  labels' one-hot table, computed from the labels alone.
-/
import proofs.«134875_j59897613910017_2_alg».proof.Proof.Gen.KernelIdeal.Frame
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Tail

open Cert.KernelIdeal Cert.KernelIdeal.Gen

variable {F : FTy → Type} [FloatOps F]
variable (m : (ℓ : Loc nD τ sig) → Buf (Elt F) ℓ)

/-- The counts: the one-hot table of the labels (label b against the row numbers 0 … 999), summed over the batch. -/
def counts (L : (⟨S8192, .i32⟩ : BufTy).Contents (Elt F)) : (⟨S1000, .f32⟩ : BufTy).Contents (Elt F) :=
  Host.reduceAdd
    (uitofp .f32 (cmpi .eq
      (broadcastInDim S8192x1000 ![0, 1] bcast_S8192x1_S8192x1000_0_1 (broadcastInDim S8192x1 ![0] bcast_S8192_S8192x1_0 L))
      (broadcastInDim S8192x1000 ![0, 1] bcast_S1x1000_S8192x1000_0_1 (iotaInDim S1x1000 32 1))))
    (constant S_ .f32 0x00000000#32) reducesTo_S8192x1000_S1000_d0 h_S_

theorem score_arr (c : Dev nD) :
    Pipeline.withArrays (cfgs 0).spec c (V0 m c) (fun w => (dats m 0 c).arrAt w (cfgs 0).N) (Proc.devRef .tc main_v17_0)
      = (dats m 0 c).arrAt 9 cfg0.N :=
  Pipeline.withArrays_arr spec0 launch0.win.arr_inj c (V0 m c) _ 9

theorem upd_arr (c : Dev nD) :
    Pipeline.withArrays (cfgs 0).spec c (V0 m c) (fun w => (dats m 0 c).arrAt w (cfgs 0).N) (Proc.devRef .tc main_v17_1)
      = (dats m 0 c).arrAt 10 cfg0.N :=
  Pipeline.withArrays_arr spec0 launch0.win.arr_inj c (V0 m c) _ 10

theorem label_arr (c : Dev nD) :
    Pipeline.withArrays (cfgs 0).spec c (V0 m c) (fun w => (dats m 0 c).arrAt w (cfgs 0).N) (Proc.devRef .tc main_arg6)
      = m ((c : Thread nD τ).loc main_arg6) :=
  (Pipeline.withArrays_of_ne _ c (V0 m c) _ main_arg6 (by exact (by decide : ∀ w, Pipeline.arrRef spec0 w ≠ main_arg6))).trans
    (V_main_arg6 m c)

/-- The scores. -/
theorem tail_v18 (c : Dev nD) :
    Pipeline.afterTail₀ cfgs (dats m) 0 (V0 m) [hostOps1, hostOps1_1, hostOps1_2] c main_v18
      = extractStridedSlice S8192x1000 ![0, 0] ((dats m 0 c).arrAt 9 cfg0.N) slices_S8192x1024_S8192x1000_0_0 := by
  unfold Pipeline.afterTail₀
  simp only [hostOps1, hostOps1_1, hostOps1_2, List.flatten_cons, List.flatten_nil, List.append_nil, List.cons_append, List.nil_append]
  after_results
  rw [score_arr]

/-- The updates. -/
theorem tail_v20 (c : Dev nD) :
    Pipeline.afterTail₀ cfgs (dats m) 0 (V0 m) [hostOps1, hostOps1_1, hostOps1_2] c main_v20
      = extractStridedSlice S1000x1024 ![0, 0]
          (Host.reduceAdd ((dats m 0 c).arrAt 10 cfg0.N) (constant S_ .f32 0x00000000#32) reducesTo_S2x1024x1024_S1024x1024_d0 h_S_)
          slices_S1024x1024_S1000x1024_0_0 := by
  unfold Pipeline.afterTail₀
  simp only [hostOps1, hostOps1_1, hostOps1_2, List.flatten_cons, List.flatten_nil, List.append_nil, List.cons_append, List.nil_append]
  after_results
  rw [upd_arr]

/-- The counts. -/
theorem tail_v22 (c : Dev nD) :
    Pipeline.afterTail₀ cfgs (dats m) 0 (V0 m) [hostOps1, hostOps1_1, hostOps1_2] c main_v22
      = counts (m ((c : Thread nD τ).loc main_arg6)) := by
  unfold Pipeline.afterTail₀
  simp only [hostOps1, hostOps1_1, hostOps1_2, List.flatten_cons, List.flatten_nil, List.append_nil, List.cons_append, List.nil_append]
  after_results
  exact congrArg (fun L => counts L) (label_arr m c)

end Cert.KernelIdeal.Tail
end
-- ==== Proof.LibSumSplit.lean ====
/-
  A sum over `a * b` consecutive naturals split into `a` blocks of `b`: position `b * q + r` is block `q`,
  offset `r`. In any additive commutative monoid (the extended reals among them: no finiteness is used).
-/
import Mathlib.Algebra.BigOperators.Intervals
import Mathlib.Algebra.BigOperators.Fin

namespace Cert.LibSumSplit

variable {M : Type*} [AddCommMonoid M]

/-- `∑ n < a * b, g n = ∑ q < a, ∑ r < b, g (b * q + r)`. -/
theorem sum_range_mul (g : ℕ → M) (b : ℕ) : ∀ a : ℕ,
    ∑ n ∈ Finset.range (a * b), g n = ∑ q ∈ Finset.range a, ∑ r ∈ Finset.range b, g (b * q + r)
  | 0 => by simp
  | a + 1 => by
    rw [Nat.succ_mul, Finset.sum_range_add, sum_range_mul g b a, Finset.sum_range_succ, Nat.mul_comm a b]

/-- A sum over `Fin n` of a function given on all naturals is the sum over `range n`. -/
theorem sum_fin_eq_range (g : ℕ → M) (n : ℕ) : ∑ k : Fin n, g k.val = ∑ k ∈ Finset.range n, g k :=
  (Finset.sum_range g).symm

/-- A sum over 8192 positions, grouped as 2 planes of 16 steps of 256 lanes: position 256·(16·p + s) + r. -/
theorem sum_split_2_16_256 (T : ℕ → M) :
    ∑ p : Fin 2, ∑ s ∈ Finset.range 16, ∑ r : Fin 256, T (256 * (16 * p.val + s) + r.val) = ∑ b : Fin 8192, T b.val := by
  have h1 : ∑ n ∈ Finset.range 8192, T n = ∑ q ∈ Finset.range 32, ∑ r ∈ Finset.range 256, T (256 * q + r) :=
    sum_range_mul T 256 32
  have h2 : ∑ q ∈ Finset.range 32, ∑ r ∈ Finset.range 256, T (256 * q + r)
      = ∑ p ∈ Finset.range 2, ∑ s ∈ Finset.range 16, ∑ r ∈ Finset.range 256, T (256 * (16 * p + s) + r) :=
    sum_range_mul (fun q => ∑ r ∈ Finset.range 256, T (256 * q + r)) 16 2
  rw [sum_fin_eq_range T 8192, h1, h2,
    ← sum_fin_eq_range (fun p => ∑ s ∈ Finset.range 16, ∑ r ∈ Finset.range 256, T (256 * (16 * p + s) + r)) 2]
  refine Finset.sum_congr rfl fun p _ => Finset.sum_congr rfl fun s _ => ?_
  exact sum_fin_eq_range (fun r => T (256 * (16 * p.val + s) + r)) 256

end Cert.LibSumSplit
-- ==== Proof.Results.lean ====
/-
  The kernel's run, read: its three results as the specification's functions of the arguments.

  Scores: column k < 1000 of the score array, whose prototype operands in that column are prototype row k, is the
  specification's score. Updates: the two planes of the update array, each the zero word plus sixteen steps of 256
  terms, add up to the sum over the whole batch of 8192 — the same terms grouped by core, step and lane. Counts: the
  host's own computation on the labels.
-/
import proofs.«134875_j59897613910017_2_alg».proof.Proof.Gen.KernelIdeal.Frame
import proofs.«134875_j59897613910017_2_alg».proof.Proof.Arrays
import proofs.«134875_j59897613910017_2_alg».proof.Proof.Tail
import proofs.«134875_j59897613910017_2_alg».proof.Proof.LibSumSplit
import proofs.«134875_j59897613910017_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Results

open Cert.KernelIdeal Cert.KernelIdeal.Gen Cert.KernelIdeal.Inputs Cert.KernelIdeal.Arrays Idealize.ShloMosaic.ValueIdx

variable (m : (ℓ : Loc nD τ sig) → Buf (Elt Ideal) ℓ) (ρ : Dev nD → PrngReg)

/-- The scores, as the specification states them. -/
def scores (c : Dev nD) : Buf (Elt Ideal) ((c : Thread nD τ).loc main_v18) :=
  fun (i : S8192x1000.Idx) => Cert.Spec.score (fun e => encM m c (i 0) e) (fun e => aP m c (ix2 (i 1) e))

/-- The class sum for class k and encoding coordinate e: the encoded rows whose label is k, added up. -/
def updSum (c : Dev nD) (k : Fin 1000) (e : Fin 1024) : EReal :=
  ∑ b : Fin 8192, Cert.Spec.hot (aL m c) k.val b * encM m c b e

/-- The updates, as the specification states them. -/
def updates (c : Dev nD) : Buf (Elt Ideal) ((c : Thread nD τ).loc main_v20) :=
  fun (i : S1000x1024.Idx) => updSum m c (i 0) (i 1)

theorem scores_at (c : Dev nD) (b : Fin 8192) (k : Fin 1000) :
    scores m c (ix2 b k) = Cert.Spec.score (fun e => Cert.Spec.enc (aX m c) (aW1 m c) (aB1 m c) (aW2 m c) (aB2 m c) b e) (fun e => aP m c (ix2 k e)) := rfl

theorem updates_at (c : Dev nD) (k : Fin 1000) (e : Fin 1024) :
    updates m c (ix2 k e) = ∑ b : Fin 8192, Cert.Spec.hot (aL m c) k.val b * Cert.Spec.enc (aX m c) (aW1 m c) (aB1 m c) (aW2 m c) (aB2 m c) b e := rfl

/-- Column k < 1000 of the score array is the specification's score against prototype k. -/
theorem score9_eq (c : Dev nD) (b : Fin 8192) (k : Fin 1000) :
    score9 m c b (⟨k.val, by have := k.isLt; omega⟩ : Fin 1024)
      = Cert.Spec.score (fun e => encM m c b e) (fun e => aP m c (ix2 k e)) := by
  unfold score9
  simp only [table_at]
  exact Cert.Spec.score_eq _ _

theorem scores_eq (c : Dev nD) :
    extractStridedSlice S8192x1000 ![0, 0] (G9 m c) slices_S8192x1024_S8192x1000_0_0 = scores m c := by
  funext i
  obtain ⟨b, k, rfl⟩ : ∃ (b : Fin 8192) (k : Fin 1000), i = ix2 b k := ⟨i 0, i 1, eq_ix2 i⟩
  refine (slice2_axis1_apply 0 (G9 m c) slices_S8192x1024_S8192x1000_0_0 b k (⟨k.val, by have := k.isLt; omega⟩ : Fin 1024) (Nat.zero_add _).symm).trans ?_
  rw [G9_at]
  exact score9_eq m c b k

/-- The two planes' sums of terms are the sum over the whole batch. -/
theorem planes_eq (c : Dev nD) (k e : Fin 1024) :
    Ideal.ofBits .f32 0x00000000#32
        + ∑ p : Fin 2, (Ideal.ofBits .f32 0x00000000#32 + ∑ s ∈ Finset.range 16, addend m c (16 * p.val + s) k e)
      = ∑ b : Fin 8192, Cert.Spec.hot (aL m c) k.val b * encM m c b e := by
  simp only [Ideal.ofBits_zero_f32, zero_add]
  unfold addend
  rw [Cert.LibSumSplit.sum_split_2_16_256 (term m c k e)]
  refine Finset.sum_congr rfl fun b _ => ?_
  unfold term
  rw [dif_pos b.isLt]

/-- A host sum over the two planes of a [2, 1024, 1024] array from the zero word, at (k, e): zero plus the two planes'
    entries. -/
theorem plane_sum (g : FVec Ideal S2x1024x1024 .f32) (k e : Fin 1024) :
    Host.reduceAdd g (constant (F := Ideal) S_ .f32 0x00000000#32) reducesTo_S2x1024x1024_S1024x1024_d0 h_S_ (ix2 k e)
      = Ideal.ofBits .f32 0x00000000#32 + ∑ p : Fin 2, g (ix3 p k e) := by
  simp only [Host.reduceAdd, Ideal.hostReduceAdd_def]
  rw [Ideal.hostReduceAdd_single reducesTo_S2x1024x1024_S1024x1024_d0 (by decide)]
  rw [constant_apply]
  refine congrArg (Ideal.ofBits .f32 0x00000000#32 + ·) (Finset.sum_congr rfl fun p _ => ?_)
  exact congrArg g (funext fun a => Fin.ext (by match a with | ⟨0, _⟩ => rfl | ⟨1, _⟩ => rfl | ⟨2, _⟩ => rfl))

theorem updates_eq (c : Dev nD) :
    extractStridedSlice S1000x1024 ![0, 0]
        (Host.reduceAdd (G10 m c) (constant (F := Ideal) S_ .f32 0x00000000#32) reducesTo_S2x1024x1024_S1024x1024_d0 h_S_)
        slices_S1024x1024_S1000x1024_0_0 = updates m c := by
  funext i
  obtain ⟨k, e, rfl⟩ : ∃ (k : Fin 1000) (e : Fin 1024), i = ix2 k e := ⟨i 0, i 1, eq_ix2 i⟩
  refine (slice2_axis0_apply 0 _ slices_S1024x1024_S1000x1024_0_0 k e (⟨k.val, by have := k.isLt; omega⟩ : Fin 1024) (Nat.zero_add _).symm).trans ?_
  rw [plane_sum]
  simp only [G10_at]
  exact planes_eq m c (⟨k.val, by have := k.isLt; omega⟩ : Fin 1024) e

/-- THE KERNEL'S RUN: every weakly fair execution ends with the three results at the specification's functions of the
    arguments and the arguments unchanged. -/
theorem run : θ_run defs (onTc (τ := τ) (main (F := Ideal))) ⟨m, fun _ => 0, ρ⟩ fun r => ∀ c : Dev nD,
      r.2.mem ((c : Thread nD τ).loc main_v18) = scores m c
      ∧ r.2.mem ((c : Thread nD τ).loc main_v20) = updates m c
      ∧ r.2.mem ((c : Thread nD τ).loc main_v22) = Tail.counts (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨
      (((h c).2 main_v18 (Pipeline.mem_restRefs_of main_v18 (by decide) (by decide))).trans (Tail.tail_v18 m c)).trans
        (by rw [final9]; exact scores_eq m c),
      (((h c).2 main_v20 (Pipeline.mem_restRefs_of main_v20 (by decide) (by decide))).trans (Tail.tail_v20 m c)).trans
        (by rw [final10]; exact updates_eq m c),
      ((h c).2 main_v22 (Pipeline.mem_restRefs_of main_v22 (by decide) (by decide))).trans (Tail.tail_v22 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Results
end
-- ==== Proof.RefValue.lean ====
/-
  The reference's three results, element by element, are the specification's functions.

  Each result is read one host operation at a time (the generated read-at-an-index lemmas) down to the arguments; the
  composed index maps of the broadcasts, transposes and contractions are the plain coordinates (b, k), (k, j), …, and
  a host sum is its initial value plus the sum along the reduced axis.
-/
import proofs.«134875_j59897613910017_2_alg».proof.Proof.Gen.ReferenceIdeal.Read
import proofs.«134875_j59897613910017_2_alg».proof.Proof.Spec
import Idealize.ShloMosaic.Lib.ValueIdx

set_option maxRecDepth 16384

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Read Idealize.ShloMosaic.ValueIdx

/-! ## The composed index maps, by coordinates -/

theorem e_l5 (b : Fin 8192) (e : Fin 1024) (j : Fin 2048) : lidx_main_v5 (ix2 b e) j = ix2 b j :=
  funext fun a => by match a with | ⟨0, _⟩ => rfl | ⟨1, _⟩ => rfl
theorem e_r5 (b : Fin 8192) (e : Fin 1024) (j : Fin 2048) : ridx_main_v5 (ix2 b e) j = ix2 j e :=
  funext fun a => by match a with | ⟨0, _⟩ => rfl | ⟨1, _⟩ => rfl
theorem e_l0 (b : Fin 8192) (j : Fin 2048) (k : Fin 1024) : lidx_main_v0 (ix2 b j) k = ix2 b k :=
  funext fun a => by match a with | ⟨0, _⟩ => rfl | ⟨1, _⟩ => rfl
theorem e_r0 (b : Fin 8192) (j : Fin 2048) (k : Fin 1024) : ridx_main_v0 (ix2 b j) k = ix2 k j :=
  funext fun a => by match a with | ⟨0, _⟩ => rfl | ⟨1, _⟩ => rfl
theorem e_b1 (b : Fin 8192) (j : Fin 2048) : idx_main_v1 (idx_main_v2 (ix2 b j)) = ix1 j :=
  funext fun a => by match a with | ⟨0, _⟩ => rfl
theorem e_b2 (b : Fin 8192) (e : Fin 1024) : idx_main_v6 (idx_main_v7 (ix2 b e)) = ix1 e :=
  funext fun a => by match a with | ⟨0, _⟩ => rfl
theorem e_x2 (b : Fin 8192) (k : Fin 1000) (e : Fin 1024) : idx_main_v10 (idx_main_v11 (idx_main_v15 (ix2 b k))) e = ix2 b e :=
  funext fun a => by match a with | ⟨0, _⟩ => rfl | ⟨1, _⟩ => rfl
theorem e_p2 (b : Fin 8192) (k : Fin 1000) (e : Fin 1024) : idx_main_v13 (idx_main_v14 (idx_main_v16 (ix2 b k))) e = ix2 k e :=
  funext fun a => by match a with | ⟨0, _⟩ => rfl | ⟨1, _⟩ => rfl
theorem e_l19 (b : Fin 8192) (k : Fin 1000) (e : Fin 1024) : lidx_main_v19 (ix2 b k) e = ix2 b e :=
  funext fun a => by match a with | ⟨0, _⟩ => rfl | ⟨1, _⟩ => rfl
theorem e_r19 (b : Fin 8192) (k : Fin 1000) (e : Fin 1024) : idx_main_v18 (ridx_main_v19 (ix2 b k) e) = ix2 k e :=
  funext fun a => by match a with | ⟨0, _⟩ => rfl | ⟨1, _⟩ => rfl
theorem e_r28 (k : Fin 1000) (e : Fin 1024) (b : Fin 8192) : ridx_main_v28 (ix2 k e) b = ix2 b e :=
  funext fun a => by match a with | ⟨0, _⟩ => rfl | ⟨1, _⟩ => rfl
theorem e_lab (k : Fin 1000) (e : Fin 1024) (b : Fin 8192) : idx_main_call1_v0 (idx_main_call1_v2 (idx_main_v27 (lidx_main_v28 (ix2 k e) b))) = ix1 b :=
  funext fun a => by match a with | ⟨0, _⟩ => rfl

/-! ## The encoding -/

theorem enc_eq (X : FVec Ideal S8192x1024 .f32) (W1 : FVec Ideal S1024x2048 .f32) (B1 : FVec Ideal S2048 .f32) (W2 : FVec Ideal S2048x1024 .f32) (B2 : FVec Ideal S1024 .f32) (b : Fin 8192) (e : Fin 1024) :
    val_main_v8 (F := Ideal) X W1 B1 W2 B2 (ix2 b e) = Cert.Spec.enc X W1 B1 W2 B2 b e := by
  unfold Cert.Spec.enc Cert.Spec.hid
  simp only [val_main_v8_apply, val_main_v5_apply, val_main_v7_apply, val_main_v6_apply, val_main_v4_apply, val_main_v3_apply,
    val_main_v0_apply, val_main_v2_apply, val_main_v1_apply, val_main_call0_v0_apply, val_main_call0_cst_apply,
    e_l5, e_r5, e_l0, e_r0, e_b1, e_b2, Ideal.addf_def, Ideal.maximumf_def, Ideal.ofBits_def]

/-! ## The scores -/

theorem score_eq (X : FVec Ideal S8192x1024 .f32) (W1 : FVec Ideal S1024x2048 .f32) (B1 : FVec Ideal S2048 .f32) (W2 : FVec Ideal S2048x1024 .f32) (B2 : FVec Ideal S1024 .f32) (Pm : FVec Ideal S1000x1024 .f32) (b : Fin 8192) (k : Fin 1000) :
    val_main_v25 (F := Ideal) X W1 B1 W2 B2 Pm (ix2 b k)
      = Cert.Spec.score (fun e => Cert.Spec.enc X W1 B1 W2 B2 b e) (fun e => Pm (ix2 k e)) := by
  unfold Cert.Spec.score
  simp only [val_main_v25_apply, val_main_v24_apply, val_main_v23_apply, val_main_cst_2_apply, val_main_v22_apply, val_main_v17_apply,
    val_main_v15_apply, val_main_v11_apply, val_main_v10_apply, val_main_v9_apply, val_main_cst_apply,
    val_main_v16_apply, val_main_v14_apply, val_main_v13_apply, val_main_v12_apply, val_main_cst_0_apply,
    val_main_v21_apply, val_main_v20_apply, val_main_cst_1_apply, val_main_v19_apply, val_main_v18_apply,
    e_x2, e_p2, e_l19, e_r19, enc_eq,
    Ideal.addf_def, Ideal.subf_def, Ideal.mulf_def, Ideal.maximumf_def, Ideal.hostNegf_def, Ideal.negf_def, Ideal.ofBits_def]

/-! ## The updates -/

theorem upd_eq (X : FVec Ideal S8192x1024 .f32) (W1 : FVec Ideal S1024x2048 .f32) (B1 : FVec Ideal S2048 .f32) (W2 : FVec Ideal S2048x1024 .f32) (B2 : FVec Ideal S1024 .f32) (L : IVec S8192 32) (k : Fin 1000) (e : Fin 1024) :
    val_main_v28 (F := Ideal) X W1 B1 W2 B2 L (ix2 k e)
      = ∑ b : Fin 8192, Cert.Spec.hot L k.val b * Cert.Spec.enc X W1 B1 W2 B2 b e := by
  rw [val_main_v28_apply]
  refine Finset.sum_congr rfl fun b _ => ?_
  rw [e_r28, enc_eq, val_main_v27_apply, val_main_v26_apply, val_main_call1_v4_apply, val_main_call1_v2_apply,
    val_main_call1_v0_apply, val_main_call1_v3_apply, val_main_call1_v1_apply, e_lab]
  rfl

end Cert.ReferenceIdeal.RefValue
end
-- ==== Proof.lean ====
/-
  A prototype-scoring step: an encoder (two affine layers with a rectifier between), the negated clamped squared
  distances of the encoded batch to 1000 prototypes, the per-class sums of the encoded rows, and the per-class counts.

  Over the extended reals the fused grid kernel and the plain reference compute the same three arrays.
    * Every change of float format is the identity, and a matrix product into a zero accumulator is the plain sum over
      the contracted axis, so a grid step's encoding of its 256 rows is the reference's encoding of those rows.
    * The kernel pads the prototypes to 1024 rows with zeros; the first 1000 columns of its score array read only
      prototype rows below 1000, where the padded table is the prototypes. The two programs then differ in writing
      `0 − y` for `−y` and in a leading `0 +` of one sum: `zero_sub`, `zero_add`.
    * The kernel forms the class sums per core: a core's sixteen grid steps add, each, the products of its 256 one-hot
      rows into a block that starts at zero, and the host adds the two cores' blocks. That is the reference's one sum
      over the 8192 rows, grouped by core, step and lane; addition of extended reals is commutative and associative, so
      no finiteness is used. A one-hot entry is 1 or 0 whether the comparison bit is widened and read signed or read
      unsigned directly.
    * The counts are the same host computation on the labels in both programs.
  The frames of the two kernel programs are the generated ones; the reference's is its generated run with the results
  dropped; the idealization rewrote nothing.
-/
import proofs.«134875_j59897613910017_2_alg».proof.Defs
import proofs.«134875_j59897613910017_2_alg».proof.Proof.Gen.Kernel
import proofs.«134875_j59897613910017_2_alg».proof.Proof.Gen.Kernel.Frame
import proofs.«134875_j59897613910017_2_alg».proof.Proof.Gen.KernelIdeal
import proofs.«134875_j59897613910017_2_alg».proof.Proof.Gen.KernelIdeal.Frame
import proofs.«134875_j59897613910017_2_alg».proof.Proof.Gen.ReferenceIdeal
import proofs.«134875_j59897613910017_2_alg».proof.Proof.Gen.ReferenceIdeal.Run
import proofs.«134875_j59897613910017_2_alg».proof.Proof.Gen.ReferenceIdeal.Read
import proofs.«134875_j59897613910017_2_alg».proof.Proof.Gen.Pre_finite_inputs
import proofs.«134875_j59897613910017_2_alg».proof.Proof.Results
import proofs.«134875_j59897613910017_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- The reference's counts are the kernel program's counts: the same host operations on the labels, at any float values. -/
theorem counts_eq {F : FTy → Type} [FloatOps F] (L : IVec Cert.ReferenceIdeal.S8192 32) :
    Host.reduceAdd (F := F) (uitofp .f32 (cmpi .eq
        (broadcastInDim Cert.ReferenceIdeal.S8192x1000 ![0, 1] Cert.ReferenceIdeal.Facts₀.bcast_S8192x1_S8192x1000_0_1
          (broadcastInDim Cert.ReferenceIdeal.S8192x1 ![0] Cert.ReferenceIdeal.Facts₀.bcast_S8192_S8192x1_0 L))
        (broadcastInDim Cert.ReferenceIdeal.S8192x1000 ![0, 1] Cert.ReferenceIdeal.Facts₀.bcast_S1x1000_S8192x1000_0_1
          (iotaInDim Cert.ReferenceIdeal.S1x1000 32 1))))
      (constant Cert.ReferenceIdeal.S_ .f32 0x00000000#32) Cert.ReferenceIdeal.Facts₀.reducesTo_S8192x1000_S1000_d0 Cert.ReferenceIdeal.Facts₀.h_S_
      = Cert.KernelIdeal.Tail.counts (F := F) L := rfl

/-- At the extended reals, from memories agreeing on the arguments, both programs end with the specification's scores,
    class sums and counts. -/
theorem algebraic : Cert.algebraic_KernelIdeal_ReferenceIdeal := by
  intro m ρ m' ρ' _ hagree
  refine ⟨fun c => Cert.KernelIdeal.Results.scores m c, fun c => Cert.KernelIdeal.Results.updates m c,
    fun c => Cert.KernelIdeal.Tail.counts (m ((c.tc : Thread Cert.KernelIdeal.nD Cert.KernelIdeal.τ).loc Cert.KernelIdeal.main_arg6)),
    Cert.KernelIdeal.Results.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  refine ⟨(h c).1.trans ?_, (h c).2.1.trans ?_, (h c).2.2.1.trans ?_, (h c).2.2.2⟩
  · rw [Cert.ReferenceIdeal.Read.val_main_v25_eq, a0, a1, a2, a3, a4, a5]
    funext i
    obtain ⟨b, k, rfl⟩ : ∃ (b : Fin 8192) (k : Fin 1000), i = ix2 b k := ⟨i 0, i 1, eq_ix2 i⟩
    show _ = Cert.KernelIdeal.Results.scores m c (ix2 b k)
    rw [Cert.KernelIdeal.Results.scores_at]
    exact Cert.ReferenceIdeal.RefValue.score_eq _ _ _ _ _ _ b k
  · rw [Cert.ReferenceIdeal.Read.val_main_v28_eq, a0, a1, a2, a3, a4, a6]
    funext i
    obtain ⟨k, e, rfl⟩ : ∃ (k : Fin 1000) (e : Fin 1024), i = ix2 k e := ⟨i 0, i 1, eq_ix2 i⟩
    show _ = Cert.KernelIdeal.Results.updates m c (ix2 k e)
    rw [Cert.KernelIdeal.Results.updates_at]
    exact Cert.ReferenceIdeal.RefValue.upd_eq _ _ _ _ _ _ k e
  · rw [a6]
    exact counts_eq _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
